-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32768 : Shape := ⟨2, ![1, 32768]⟩
abbrev S1x32768x512 : Shape := ⟨3, ![1, 32768, 512]⟩
abbrev S1x40000x512 : Shape := ⟨3, ![1, 40000, 512]⟩
abbrev S_ : Shape := ⟨0, ![]⟩

class Facts : Prop where
  bcast_S_S1x32768x512 : S_.BroadcastsInDim S1x32768x512 (![] : Fin 0 → Fin S1x32768x512.rank)
  reducesTo_S1x32768x512_S_d0_1_2 : S1x32768x512.ReducesTo [0, 1, 2] S_
  h_S_ : 0 < S_.numel
  bcast_S_S1x40000x512 : S_.BroadcastsInDim S1x40000x512 (![] : Fin 0 → Fin S1x40000x512.rank)
  reducesTo_S1x40000x512_S_d0_1_2 : S1x40000x512.ReducesTo [0, 1, 2] S_
  bcast_S_S1x32768 : S_.BroadcastsInDim S1x32768 (![] : Fin 0 → Fin S1x32768.rank)
  reducesTo_S1x32768_S_d0_1 : S1x32768.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1x32768 32) (main_arg1 : FVec F S1x32768x512 .f32) (main_arg2 : FVec F S1x40000x512 .f32) : IVec S_ 1 :=
  let main_v0 : FVec F S1x32768x512 .f32 := Host.absf main_arg1
  let main_cst : FVec F S_ .f32 := constant S_ .f32 0x7F800000#32
  let main_v1 : FVec F S1x32768x512 .f32 := broadcastInDim S1x32768x512 ![] bcast_S_S1x32768x512 main_cst
  let main_v2 : IVec S1x32768x512 1 := cmpf .olt main_v0 main_v1
  let main_c : IVec S_ 1 := constantI S_ 1 1#1
  let main_v3 : IVec S_ 1 := (fun x v => Host.reduce IntOp.andi x v reducesTo_S1x32768x512_S_d0_1_2 h_S_) main_v2 main_c
  let main_v4 : FVec F S1x40000x512 .f32 := Host.absf main_arg2
  let main_cst_0 : FVec F S_ .f32 := constant S_ .f32 0x7F800000#32
  let main_v5 : FVec F S1x40000x512 .f32 := broadcastInDim S1x40000x512 ![] bcast_S_S1x40000x512 main_cst_0
  let main_v6 : IVec S1x40000x512 1 := cmpf .olt main_v4 main_v5
  let main_c_1 : IVec S_ 1 := constantI S_ 1 1#1
  let main_v7 : IVec S_ 1 := (fun x v => Host.reduce IntOp.andi x v reducesTo_S1x40000x512_S_d0_1_2 h_S_) main_v6 main_c_1
  let main_v8 : IVec S_ 1 := andi main_v3 main_v7
  let main_c_2 : IVec S_ 32 := constantI S_ 32 0#32
  let main_v9 : IVec S1x32768 32 := broadcastInDim S1x32768 ![] bcast_S_S1x32768 main_c_2
  let main_v10 : IVec S1x32768 1 := cmpi .sge main_arg0 main_v9
  let main_c_3 : IVec S_ 1 := constantI S_ 1 1#1
  let main_v11 : IVec S_ 1 := (fun x v => Host.reduce IntOp.andi x v reducesTo_S1x32768_S_d0_1 h_S_) main_v10 main_c_3
  let main_v12 : IVec S_ 1 := andi main_v8 main_v11
  let main_c_4 : IVec S_ 32 := constantI S_ 32 2048#32
  let main_v13 : IVec S1x32768 32 := broadcastInDim S1x32768 ![] bcast_S_S1x32768 main_c_4
  let main_v14 : IVec S1x32768 1 := cmpi .slt main_arg0 main_v13
  let main_c_5 : IVec S_ 1 := constantI S_ 1 1#1
  let main_v15 : IVec S_ 1 := (fun x v => Host.reduce IntOp.andi x v reducesTo_S1x32768_S_d0_1 h_S_) main_v14 main_c_5
  fn_part1 (F := F) main_v12 main_v15
-- ==== Kernel.lean ====
abbrev S1x32768 : Shape := ⟨2, ![1, 32768]⟩
abbrev S1x32768x512 : Shape := ⟨3, ![1, 32768, 512]⟩
abbrev S1x40000x512 : Shape := ⟨3, ![1, 40000, 512]⟩
abbrev S32768 : Shape := ⟨1, ![32768]⟩
abbrev S_ : Shape := ⟨0, ![]⟩
abbrev S2048 : Shape := ⟨1, ![2048]⟩
abbrev S32768x1 : Shape := ⟨2, ![32768, 1]⟩
abbrev S1x2048x512 : Shape := ⟨3, ![1, 2048, 512]⟩
abbrev S2048x512 : Shape := ⟨2, ![2048, 512]⟩
abbrev S1x1024 : Shape := ⟨2, ![1, 1024]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 50
  | .vmem => 7
  | .smem => 0
  | _ => 0

abbrev bufTy : (tb : Table) → Fin (tcTables nBuf tb) → BufTy
  | .hbm, ⟨0, _⟩ => ⟨S1x32768, .i32⟩
  | .hbm, ⟨1, _⟩ => ⟨S1x32768x512, .f32⟩
  | .hbm, ⟨2, _⟩ => ⟨S1x40000x512, .f32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S2048, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S2048, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S32768, .i32⟩
  | .hbm, ⟨25, _⟩ => ⟨S32768, .i1⟩
  | .hbm, ⟨26, _⟩ => ⟨S32768, .i32⟩
  | .hbm, ⟨27, _⟩ => ⟨S_, .i32⟩
  | .hbm, ⟨28, _⟩ => ⟨S_, .i32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S_, .i32⟩
  | .hbm, ⟨37, _⟩ => ⟨S32768, .i32⟩
  | .hbm, ⟨38, _⟩ => ⟨S32768, .i32⟩
  | .hbm, ⟨39, _⟩ => ⟨S32768, .i32⟩
  | .hbm, ⟨40, _⟩ => ⟨S32768x1, .i32⟩
  | .hbm, ⟨41, _⟩ => ⟨S32768, .i32⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S1x32768, .i32⟩
  | .hbm, ⟨46, _⟩ => ⟨S1x2048x512, .f32⟩
  | .hbm, ⟨47, _⟩ => ⟨S2048x512, .f32⟩
  | .hbm, ⟨48, _⟩ => ⟨S2048x512, .bf16⟩
  | .hbm, ⟨49, _⟩ => ⟨S1x32768x512, .f32⟩
  | .local _ .vmem, ⟨0, _⟩ => ⟨S1x1024, .i32⟩
  | .local _ .vmem, ⟨1, _⟩ => ⟨S1x1024, .i32⟩
  | .local _ .vmem, ⟨2, _⟩ => ⟨S1x1024x512, .f32⟩
  | .local _ .vmem, ⟨3, _⟩ => ⟨S1x1024x512, .f32⟩
  | .local _ .vmem, ⟨4, _⟩ => ⟨S2048x512, .bf16⟩
  | .local _ .vmem, ⟨5, _⟩ => ⟨S1x1024x512, .f32⟩
  | .local _ .vmem, ⟨6, _⟩ => ⟨S1x1024x512, .f32⟩
  | _, _ => ⟨S1x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_call0_c : Ref sig .tc := ⟨.hbm, 27, rfl⟩
abbrev main_call0_call0_v0 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x32768_S32768 : S1x32768.ShapeCasts S32768
  bcast_S_S2048 : S_.BroadcastsInDim S2048 (![] : Fin 0 → Fin S2048.rank)
  bcast_S_S32768 : S_.BroadcastsInDim S32768 (![] : Fin 0 → Fin S32768.rank)
  bcast_S32768_S32768x1_0 : S32768.BroadcastsInDim S32768x1 (![0] : Fin 1 → Fin S32768x1.rank)
  natLt_1_32 : 1 < 32
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  shapeCasts_S32768_S1x32768 : S32768.ShapeCasts S1x32768
  slices_S1x40000x512_S1x2048x512_0_0_0 : S1x40000x512.Slices ![0, 0, 0] S1x2048x512
  shapeCasts_S1x2048x512_S2048x512 : S1x2048x512.ShapeCasts S2048x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S2048x1024_d0_w32 : S2048x1024.Iotas .tc 32 [0]
  broadcasts_S1x1024_S2048x1024 : S1x1024.Broadcasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  scatter_S2048_S32768x1_S32768_n_0_0_1_wf : ScatterDims.WF S2048 S32768x1 S32768 [] [0] [0] 1
  gather_S2048_S32768x1_S32768_n_0_n_n_0_1_1_wf : GatherDims.WF S2048 S32768x1 S32768 [] [0] [] [0] [] 1 ![1]
  gather_S32768_S32768x1_S32768_n_0_n_n_0_1_1_wf : GatherDims.WF S32768 S32768x1 S32768 [] [0] [] [0] [] 1 ![1]
  dot_S2048x1024_S2048x512_S1024x512_0_0_1_1_n_n_wf : DotDims.WF S2048x1024 S2048x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x32768.size a
  hwx0_0 : ∀ i : grid0.Coords, EltTy.bits .i32 = 32 ∨ (Rect.block (s := S1x32768) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S1x32768x512.size a
  hwx0_1 : ∀ i : grid0.Coords, EltTy.bits .f32 = 32 ∨ (Rect.block (s := S1x32768x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S1x32768x512.size a
  hwx0_3 : ∀ i : grid0.Coords, EltTy.bits .f32 = 32 ∨ (Rect.block (s := S1x32768x512) S1x1024x512.size (cc0_transform_3 i) (hinb0_3 i)).WholeWords (EltTy.packing .f32)

variable [Facts₀]

def scatter_S2048_S32768x1_S32768_n_0_0_1 : ScatterDims S2048 S32768x1 S32768 where
  updateWindowDims := []
  insertedWindowDims := [0]
  scatterDimsToOperandDims := [0]
  indexVectorDim := 1
  wf := scatter_S2048_S32768x1_S32768_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def dot_S2048x1024_S2048x512_S1024x512_0_0_1_1_n_n : DotDims S2048x1024 S2048x512 S1024x512 where
  lhsContracting := [0]
  rhsContracting := [0]
  lhsNonContracting := [1]
  rhsNonContracting := [1]
  lhsBatch := []
  rhsBatch := []
  wf := dot_S2048x1024_S2048x512_S1024x512_0_0_1_1_n_n_wf

abbrev win0_0 : Pipeline.Window sig grid0 :=
  Pipeline.Window.ofSpec (Memref.whole main_v31) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x32768 : Shape := ⟨2, ![1, 32768]⟩
abbrev S1x32768x512 : Shape := ⟨3, ![1, 32768, 512]⟩
abbrev S1x40000x512 : Shape := ⟨3, ![1, 40000, 512]⟩
abbrev S32768 : Shape := ⟨1, ![32768]⟩
abbrev S_ : Shape := ⟨0, ![]⟩
abbrev S2048 : Shape := ⟨1, ![2048]⟩
abbrev S32768x1 : Shape := ⟨2, ![32768, 1]⟩
abbrev S32768x2 : Shape := ⟨2, ![32768, 2]⟩
abbrev S32768x512 : Shape := ⟨2, ![32768, 512]⟩

abbrev nBuf : Space → Nat
  | .hbm => 61
  | .vmem => 0
  | .smem => 0
  | _ => 0

abbrev bufTy : (tb : Table) → Fin (tcTables nBuf tb) → BufTy
  | .hbm, ⟨0, _⟩ => ⟨S1x32768, .i32⟩
  | .hbm, ⟨1, _⟩ => ⟨S1x32768x512, .f32⟩
  | .hbm, ⟨2, _⟩ => ⟨S1x40000x512, .f32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S2048, .i32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S2048, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S32768, .i32⟩
  | .hbm, ⟨25, _⟩ => ⟨S32768, .i1⟩
  | .hbm, ⟨26, _⟩ => ⟨S32768, .i32⟩
  | .hbm, ⟨27, _⟩ => ⟨S_, .i32⟩
  | .hbm, ⟨28, _⟩ => ⟨S_, .i32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S_, .i32⟩
  | .hbm, ⟨37, _⟩ => ⟨S32768, .i32⟩
  | .hbm, ⟨38, _⟩ => ⟨S32768, .i32⟩
  | .hbm, ⟨39, _⟩ => ⟨S32768, .i32⟩
  | .hbm, ⟨40, _⟩ => ⟨S32768x1, .i32⟩
  | .hbm, ⟨41, _⟩ => ⟨S32768, .i32⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S_, .i32⟩
  | .hbm, ⟨53, _⟩ => ⟨S32768, .i32⟩
  | .hbm, ⟨54, _⟩ => ⟨S32768, .i32⟩
  | .hbm, ⟨55, _⟩ => ⟨S32768x1, .i32⟩
  | .hbm, ⟨56, _⟩ => ⟨S32768x1, .i32⟩
  | .hbm, ⟨57, _⟩ => ⟨S32768x2, .i32⟩
  | .hbm, ⟨58, _⟩ => ⟨S32768x512, .f32⟩
  | .hbm, ⟨59, _⟩ => ⟨S1x32768x512, .f32⟩
  | .hbm, ⟨60, _⟩ => ⟨S1x32768x512, .f32⟩
  | _, _ => ⟨S1x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_call0_c : Ref sig .tc := ⟨.hbm, 27, rfl⟩
abbrev main_call0_call0_v0 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  shapeCasts_S1x32768_S32768 : S1x32768.ShapeCasts S32768
  bcast_S_S2048 : S_.BroadcastsInDim S2048 (![] : Fin 0 → Fin S2048.rank)
  bcast_S_S32768 : S_.BroadcastsInDim S32768 (![] : Fin 0 → Fin S32768.rank)
  bcast_S32768_S32768x1_0 : S32768.BroadcastsInDim S32768x1 (![0] : Fin 1 → Fin S32768x1.rank)
  natLt_1_32 : 1 < 32
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  concatenates_S32768x1_S32768x1_S32768x2_d1 : Shape.Concatenates [S32768x1, S32768x1] S32768x2 1
  bcast_S32768x512_S1x32768x512_1_2 : S32768x512.BroadcastsInDim S1x32768x512 (![1, 2] : Fin 2 → Fin S1x32768x512.rank)
  scatter_S2048_S32768x1_S32768_n_0_0_1_wf : ScatterDims.WF S2048 S32768x1 S32768 [] [0] [0] 1
  gather_S2048_S32768x1_S32768_n_0_n_n_0_1_1_wf : GatherDims.WF S2048 S32768x1 S32768 [] [0] [] [0] [] 1 ![1]
  gather_S32768_S32768x1_S32768_n_0_n_n_0_1_1_wf : GatherDims.WF S32768 S32768x1 S32768 [] [0] [] [0] [] 1 ![1]
  gather_S1x40000x512_S32768x2_S32768x512_1_01_n_n_01_1_11512_wf : GatherDims.WF S1x40000x512 S32768x2 S32768x512 [1] [0, 1] [] [0, 1] [] 1 ![1, 1, 512]

variable [Facts₀]

def scatter_S2048_S32768x1_S32768_n_0_0_1 : ScatterDims S2048 S32768x1 S32768 where
  updateWindowDims := []
  insertedWindowDims := [0]
  scatterDimsToOperandDims := [0]
  indexVectorDim := 1
  wf := scatter_S2048_S32768x1_S32768_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S1x40000x512_S32768x2_S32768x512_1_01_n_n_01_1_11512 : GatherDims S1x40000x512 S32768x2 S32768x512 where
  offsetDims := [1]
  collapsedSliceDims := [0, 1]
  operandBatchingDims := []
  startIndicesBatchingDims := []
  startIndexMap := [0, 1]
  indexVectorDim := 1
  sliceSizes := ![1, 1, 512]
  wf := gather_S1x40000x512_S32768x2_S32768x512_1_01_n_n_01_1_11512_wf

class Facts : Prop extends Facts₀ where

variable [Facts]
-- ==== Proof.Spec.lean ====
/-
  The common mathematics of the two programs.

  Both programs first compute, from the token ids, one integer per position — the order of first occurrence of the
  position's token: `posOf`. The steps are: the ids as a flat array (a negative id is first raised by the vocabulary
  size); for each vocabulary entry the least position holding it (a scatter with `min` into an array started at the
  sequence length); each position's first occurrence (a gather of that array at the ids); the mark "this position is its
  own first occurrence"; the running count of marks (a windowed sum over all earlier positions) less one; that rank read
  at each position's first occurrence (a second gather); the result capped at the table's last row.

  The result of both programs is then, at batch 0, position t and feature d, the input x plus row `posOf t` of the table
  pe: `out`. A row is named by a 32-bit word; `row` reads it as a natural number capped at the last row.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S_ : Shape := ⟨0, ![]⟩
abbrev S2048 : Shape := ⟨1, ![2048]⟩
abbrev S32768 : Shape := ⟨1, ![32768]⟩
abbrev S32768x1 : Shape := ⟨2, ![32768, 1]⟩
abbrev S1x32768 : Shape := ⟨2, ![1, 32768]⟩
abbrev S1x32768x512 : Shape := ⟨3, ![1, 32768, 512]⟩
abbrev S1x40000x512 : Shape := ⟨3, ![1, 40000, 512]⟩

/-- The dimension numbers of a scatter of R scalar updates into a flat array of N entries, one index per update
    (indices of shape [R, 1]). -/
abbrev scat1 (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The dimension numbers of a gather of R entries of a flat array of N entries, one index per entry (indices of
    shape [R, 1]). -/
abbrev gat1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The shape relations the steps of `posOf` take (each program states its own copies). -/
structure PosFacts : Prop where
  cast_in : S1x32768.ShapeCasts S32768
  b2048 : S_.BroadcastsInDim S2048 (![] : Fin 0 → Fin S2048.rank)
  b32768 : S_.BroadcastsInDim S32768 (![] : Fin 0 → Fin S32768.rank)
  bcol : S32768.BroadcastsInDim S32768x1 (![0] : Fin 1 → Fin S32768x1.rank)
  lt132 : 1 < 32
  bss : S_.BroadcastsInDim S_ (![] : Fin 0 → Fin S_.rank)
  rw : S32768.ReduceWindows (![32768] : Fin 1 → Nat) ![1] ![32767] ![0] S32768
  hS : 0 < S_.numel
  wfs : ScatterDims.WF S2048 S32768x1 S32768 [] [0] [0] 1
  wfg1 : GatherDims.WF S2048 S32768x1 S32768 [] [0] [] [0] [] 1 ![1]
  wfg2 : GatherDims.WF S32768 S32768x1 S32768 [] [0] [] [0] [] 1 ![1]

/-- A 32-bit constant at every position. -/
abbrev splat (h : PosFacts) (w : BitVec 32) : IVec S32768 32 := broadcastInDim S32768 ![] h.b32768 (constantI S_ 32 w)

/-- The ids as a flat array, a negative id raised by the vocabulary size. -/
def ids (h : PosFacts) (tok : IVec S1x32768 32) : IVec S32768 32 :=
  select (cmpi .slt (fun i => shapeCast S32768 tok h.cast_in i) (splat h 0#32))
    (addi (fun i => shapeCast S32768 tok h.cast_in i) (splat h 2048#32)) (fun i => shapeCast S32768 tok h.cast_in i)

/-- For each vocabulary entry the least position holding it, the sequence length where no position does. -/
def firstSeen (h : PosFacts) (tok : IVec S1x32768 32) : IVec S2048 32 :=
  Host.scatter (scat1 2048 32768 h.wfs) IntOp.minsi (broadcastInDim S2048 ![] h.b2048 (constantI S_ 32 32768#32))
    (broadcastInDim S32768x1 ![0] h.bcol (ids h tok)) (iotaInDim S32768 32 0)

/-- Each position's first occurrence. -/
def firstPos (h : PosFacts) (tok : IVec S1x32768 32) : IVec S32768 32 :=
  Host.gather (gat1 2048 32768 h.wfg1) (firstSeen h tok) (broadcastInDim S32768x1 ![0] h.bcol (ids h tok))

/-- The mark: 1 where a position is its own first occurrence, else 0. -/
def isFirst (h : PosFacts) (tok : IVec S1x32768 32) : IVec S32768 32 :=
  extui 32 (cmpi .eq (iotaInDim S32768 32 0) (firstPos h tok)) h.lt132

/-- The running count of marks up to and including each position. -/
def count (h : PosFacts) (tok : IVec S1x32768 32) : IVec S32768 32 :=
  Host.reduceWindow IntOp.addi ![32768] ![1] ![32767] ![0] (isFirst h tok)
    (broadcastInDim S_ ![] h.bss (constantI S_ 32 0#32)) h.rw h.hS

/-- The order of first occurrence of each position's token, capped at the table's last row. -/
def posOf (h : PosFacts) (tok : IVec S1x32768 32) : IVec S32768 32 :=
  minsi
    (Host.gather (gat1 32768 32768 h.wfg2) (subi (count h tok) (splat h 1#32))
      (broadcastInDim S32768x1 ![0] h.bcol
        (select (cmpi .slt (firstPos h tok) (splat h 0#32)) (addi (firstPos h tok) (splat h 32768#32)) (firstPos h tok))))
    (splat h 39999#32)

/-- A table row named by a 32-bit word: the word as a natural number, capped at the last row. -/
def row (w : BitVec 32) : Fin 40000 := ⟨min w.toNat 39999, by omega⟩

/-- The common result: x plus, at position t, row `pos t` of the table. -/
def out (pos : IVec S32768 32) (x : FVec Ideal S1x32768x512 .f32) (pe : FVec Ideal S1x40000x512 .f32) :
    FVec Ideal S1x32768x512 .f32 :=
  fun i => x i + pe (ix3 (0 : Fin 1) (row (pos (ix1 (⟨(i 1).val, (i 1).isLt⟩ : Fin 32768)))) (⟨(i 2).val, (i 2).isLt⟩ : Fin 512))

/-- `out` at coordinates. -/
theorem out_apply (pos : IVec S32768 32) (x : FVec Ideal S1x32768x512 .f32) (pe : FVec Ideal S1x40000x512 .f32)
    (t : Fin 32768) (d : Fin 512) :
    out pos x pe (ix3 (0 : Fin 1) t d) = x (ix3 (0 : Fin 1) t d) + pe (ix3 (0 : Fin 1) (row (pos (ix1 t))) d) := rfl

end Cert.Spec

end
-- ==== Proof.KernelBlocks.lean ====
/-
  The pipeline's blocks read at coordinates.

  Grid point t stages positions 1024·t … 1024·t + 1023: one row of 1024 entries of the [1, 32768] index array, the
  [1024, 512] tile of a [1, 32768, 512] array at those positions, and — the same at every point — a whole [2048, 512]
  array; it writes back the [1024, 512] tile at those positions. Each is stated for an arbitrary array: entry r of the
  row is the array at position 1024·t + r, and so on. Also here: row v (below 2048) of the leading-rows slice of the
  table is row v of the table, and the word of a number below 2048 names that row.
-/
import proofs.«131790_j77446850281785_1_alg».proof.Proof.Gen.KernelIdeal.Value
import proofs.«131790_j77446850281785_1_alg».proof.Proof.Spec
import Idealize.ShloMosaic.Lib.Pipeline.Value
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the index row and the two tiles move with the point along the position
    axis; the table stays. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

theorem pt_lt (t : Fin cfg0.N) : t.val < 32 := lt_of_lt_of_eq t.isLt N_0

/-- Position 1024·t + r of the sequence. -/
abbrev posAt (t : Fin cfg0.N) (r : Fin 1024) : Fin 32768 := ⟨t.val * 1024 + r.val, by have := pt_lt t; omega⟩

/-- The row staged at point t, at r, is the array at position 1024·t + r. -/
theorem blk0_read (A : S1x32768.Idx → BitVec 32) (t : Fin cfg0.N) (r : Fin 1024) :
    (((cfg0.win 0).blk t).view.read (Elt Ideal) A : S1x1024.Idx → BitVec 32) (ix2 (0 : Fin 1) r)
      = A (ix2 (0 : Fin 1) (posAt t r)) := by
  obtain ⟨e0, e1, -⟩ := idx_facts t
  show A (((cfg0.win 0).blk t).view.emb (ix2 (0 : Fin 1) r)) = _
  refine congrArg A (funext fun a => Fin.ext ?_)
  match a with
  | ⟨0, _⟩ => show win0_0.index t (0 : Fin 2) * 1 + 1 * 0 = 0; omega
  | ⟨1, _⟩ => show win0_0.index t (1 : Fin 2) * 1024 + 1 * r.val = t.val * 1024 + r.val; omega

/-- The tile staged at point t, at (r, d), is the array at position 1024·t + r. -/
theorem blk1_read (A : S1x32768x512.Idx → EReal) (t : Fin cfg0.N) (r : Fin 1024) (d : Fin 512) :
    (((cfg0.win 1).blk t).view.read (Elt Ideal) A : S1x1024x512.Idx → EReal) (ix3 (0 : Fin 1) r d)
      = A (ix3 (0 : Fin 1) (posAt t r) d) := by
  obtain ⟨-, -, e0, e1, e2, -⟩ := idx_facts t
  show A (((cfg0.win 1).blk t).view.emb (ix3 (0 : Fin 1) r d)) = _
  refine congrArg A (funext fun a => Fin.ext ?_)
  match a with
  | ⟨0, _⟩ => show win0_1.index t (0 : Fin 3) * 1 + 1 * 0 = 0; omega
  | ⟨1, _⟩ => show win0_1.index t (1 : Fin 3) * 1024 + 1 * r.val = t.val * 1024 + r.val; omega
  | ⟨2, _⟩ => show win0_1.index t (2 : Fin 3) * 512 + 1 * d.val = d.val; omega

/-- The [2048, 512] array staged at every point is the whole array. -/
theorem blk2_read (A : S2048x512.Idx → EReal) (t : Fin cfg0.N) (v : Fin 2048) (d : Fin 512) :
    (((cfg0.win 2).blk t).view.read (Elt Ideal) A : S2048x512.Idx → EReal) (ix2 v d) = A (ix2 v d) := by
  obtain ⟨-, -, -, -, -, e0, e1, -⟩ := idx_facts t
  show A (((cfg0.win 2).blk t).view.emb (ix2 v d)) = _
  refine congrArg A (funext fun a => Fin.ext ?_)
  match a with
  | ⟨0, _⟩ => show win0_2.index t (0 : Fin 2) * 2048 + 1 * v.val = v.val; omega
  | ⟨1, _⟩ => show win0_2.index t (1 : Fin 2) * 512 + 1 * d.val = d.val; omega

/-- Entry (r, d) of the tile written at point t sits at position 1024·t + r of the result. -/
theorem emb3_apply (t : Fin cfg0.N) (r : Fin 1024) (d : Fin 512) :
    (((cfg0.win 3).blk t).view.emb (ix3 (0 : Fin 1) r d) : S1x32768x512.Idx) = ix3 (0 : Fin 1) (posAt t r) d := by
  obtain ⟨-, -, -, -, -, -, -, e0, e1, e2⟩ := idx_facts t
  refine funext fun a => Fin.ext ?_
  match a with
  | ⟨0, _⟩ => show win0_3.index t (0 : Fin 3) * 1 + 1 * 0 = 0; omega
  | ⟨1, _⟩ => show win0_3.index t (1 : Fin 3) * 1024 + 1 * r.val = t.val * 1024 + r.val; omega
  | ⟨2, _⟩ => show win0_3.index t (2 : Fin 3) * 512 + 1 * d.val = d.val; omega
/-- Row v (below 2048) of the staged table is row v of pe. -/
theorem pe_rows_apply (pe : FVec Ideal S1x40000x512 .f32) (v : Fin 2048) (d : Fin 512) (k : Fin 40000)
    (hk : k.val = v.val) :
    (truncf (F := Ideal) .bf16
        (fun i => shapeCast S2048x512
          (extractStridedSlice S1x2048x512 ![0, 0, 0] pe Facts₀.slices_S1x40000x512_S1x2048x512_0_0_0)
          Facts₀.shapeCasts_S1x2048x512_S2048x512 i)
        Facts₀.bitsLt_bf16_f32) (ix2 v d)
      = pe (ix3 (0 : Fin 1) k d) := by
  rw [truncf_apply]
  show shapeCast S2048x512 _ _ (ix2 v d) = _
  rw [shapeCast_1ab_ab_apply]
  refine extractStridedSlice_apply _ pe _ _ (ix3 (0 : Fin 1) k d) fun a => ?_
  match a with
  | ⟨0, _⟩ => rfl
  | ⟨1, _⟩ => show k.val = 0 + v.val; omega
  | ⟨2, _⟩ => show d.val = 0 + d.val; omega

/-- A word of a natural number below 2048 names that table row. -/
theorem row_ofNat (p : Fin 2048) : (Cert.Spec.row (BitVec.ofNat 32 p.val)).val = p.val := by
  have hp := p.isLt
  show min (BitVec.ofNat 32 p.val).toNat 39999 = p.val
  rw [BitVec.toNat_ofNat, Nat.mod_eq_of_lt (by omega)]
  omega

/-- An index of the result is in point t's tile iff each coordinate is in the tile's range on its axis. -/
theorem mem_blk3 (t : Fin cfg0.N) (i : S1x32768x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v35).slice (win0_3.rect t)).set ↔ _
  rw [View.set_slice_whole, Rect.mem_set_unit]
  exact Iff.rfl

/-- Every tile index along the position axis is some point's: point q has tile q. -/
theorem idx_onto : ∀ q : Fin 32, ∃ t : Fin cfg0.N, win0_3.index t = ![0, q.val, 0] :=
  (by decide +kernel : ∀ q : Fin 32, ∃ t : Fin grid0.N, win0_3.index t = ![0, q.val, 0])

/-- The tiles cover the result: position T lies in tile T / 1024. -/
theorem cover (i : S1x32768x512.Idx) :
    ∃ t : Fin cfg0.N, (cfg0.win 3).flush t = true ∧ i ∈ ((cfg0.win 3).blk t).view.set := by
  have h0 : (i 0).val < 1 := (i 0).isLt
  have h1 : (i 1).val < 32768 := (i 1).isLt
  have h2 : (i 2).val < 512 := (i 2).isLt
  obtain ⟨t, ht⟩ := idx_onto ⟨(i 1).val / 1024, by omega⟩
  have q0 : win0_3.index t (0 : Fin 3) = 0 := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

end Cert.KernelIdeal.KValue

end
-- ==== Proof.KernelV.lean ====
/-
  The arrays the kernel's pipeline stages, as functions of the arguments.

  Before the pipeline the program computes, on the host, the index of every position (the shared function
  `Cert.Spec.posOf` of the token ids) laid out as one row [1, 32768], and the first 2048 rows of the table pe as a
  [2048, 512] array (a slice of the leading rows, the unit batch axis dropped, the change of float format the identity
  on the extended reals). The other staged array is the argument x itself.
-/
import proofs.«131790_j77446850281785_1_alg».proof.Proof.Gen.KernelIdeal.Frame
import proofs.«131790_j77446850281785_1_alg».proof.Proof.Spec
import Idealize.ShloMosaic.Lib.StableHlo.Run
import Idealize.ShloMosaic.PureOps.Ideal

noncomputable section

namespace Cert.KernelIdeal.KValue

open Cert.KernelIdeal Cert.KernelIdeal.Gen Idealize.ShloMosaic Idealize.ShloMosaic.TcCoe Idealize.ShloMosaic.StableHlo Idealize.SL.Sem

/-- The kernel program's own copies of the shape relations the index computation takes. -/
def kfacts : Cert.Spec.PosFacts :=
  ⟨Facts₀.shapeCasts_S1x32768_S32768, Facts₀.bcast_S_S2048, Facts₀.bcast_S_S32768, Facts₀.bcast_S32768_S32768x1_0,
    Facts₀.natLt_1_32, Facts₀.bcast_S_S_, Facts₀.reduceWindows_S32768_S32768_w32768s1p32767_0, Facts₀.h_S_,
    Facts₀.scatter_S2048_S32768x1_S32768_n_0_0_1_wf, Facts₀.gather_S2048_S32768x1_S32768_n_0_n_n_0_1_1_wf,
    Facts₀.gather_S32768_S32768x1_S32768_n_0_n_n_0_1_1_wf⟩

variable (m : (ℓ : Loc nD τ sig) → Buf (Elt Ideal) ℓ)

attribute [local irreducible] Host.gather Host.scatter Host.reduceWindow in
set_option maxHeartbeats 2000000 in
/-- The first staged array is the index of every position, as one row. -/
theorem V_pos (c : Dev nD) :
    (V (F := Ideal) m c main_v31 : S1x32768.Idx → BitVec 32)
      = fun i => shapeCast S1x32768 (Cert.Spec.posOf kfacts (m ((c : Thread nD τ).loc main_arg0)))
          Facts₀.shapeCasts_S32768_S1x32768 i := by
  dsimp only [Gen.V]
  simp only [hostOps0, hostOps0_1, hostOps0_2, List.flatten_cons, List.flatten_nil, List.append_nil, List.cons_append,
    List.nil_append]
  after_results_simp
  rfl

set_option maxHeartbeats 2000000 in
/-- The third staged array is the first 2048 rows of the table. -/
theorem V_pe (c : Dev nD) :
    (V (F := Ideal) m c main_v34 : S2048x512.Idx → EReal)
      = truncf (F := Ideal) .bf16
          (fun i => shapeCast S2048x512
            (extractStridedSlice S1x2048x512 ![0, 0, 0] (m ((c : Thread nD τ).loc main_arg2))
              Facts₀.slices_S1x40000x512_S1x2048x512_0_0_0)
            Facts₀.shapeCasts_S1x2048x512_S2048x512 i)
          Facts₀.bitsLt_bf16_f32 := by
  dsimp only [Gen.V]
  simp only [hostOps0, hostOps0_1, hostOps0_2, List.flatten_cons, List.flatten_nil, List.append_nil, List.cons_append,
    List.nil_append]
  after_results_simp
  rfl

end Cert.KernelIdeal.KValue

end
-- ==== Proof.LibDotLT.lean ====
/-
  A matrix product with the left operand transposed, read at an entry.

  For a product of a [K, M] array with a [K, N] array that contracts the FIRST axis of both (dimension numbers
  [0], [0], [1], [1], no batch axis) into a zero accumulator, the (p, q) entry over the extended reals is
  Σ_k l (k, p) · r (k, q). The statement takes the two facts about the dimension record that are decided by
  unfolding it at a concrete record (the operands' trailing coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotLT

open Idealize.ShloMosaic Idealize.ShloMosaic.ValueIdx

/-- The (p, q) entry of `lᵀ · r` accumulated from zero is the sum over the shared first axis. -/
theorem matmulLT_zero_apply {M N K : Nat} {φ₁ φ₂ : FTy}
    (d : DotDims ⟨2, ![K, M]⟩ ⟨2, ![K, N]⟩ ⟨2, ![M, N]⟩)
    (hl : d.lhsContracting = [0]) (hr : d.rhsContracting = [0])
    (hrank : d.contr.rank = 1) (hsize : d.contr.size ⟨0, by omega⟩ = K)
    (hl1 : ∀ j k, (d.lhsIdx j k 1).val = (j 0).val) (hr1 : ∀ j k, (d.rhsIdx j k 1).val = (j 1).val)
    (prec : Option ContractPrecision)
    (l : FVec Ideal ⟨2, ![K, M]⟩ φ₁) (r : FVec Ideal ⟨2, ![K, N]⟩ φ₂) (p : Fin M) (q : Fin N) :
    matmul d prec l r (constant (F := Ideal) ⟨2, ![M, N]⟩ .f32 0x00000000#32) (ix2 p q)
      = ∑ k : Fin K, l (ix2 k p) * r (ix2 k q) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 k p := by
    funext a; apply Fin.ext
    match a with
    | ⟨0, _⟩ => exact (d.lhsIdx_val_of_single hl _ _).trans (contrEquiv1_symm_val d K hrank hsize k)
    | ⟨1, _⟩ => exact hl1 _ _
  have e2 : d.rhsIdx (ix2 p q) ((contrEquiv1 d K hrank hsize).symm k) = ix2 k q := by
    funext a; apply Fin.ext
    match a with
    | ⟨0, _⟩ => exact (d.rhsIdx_val_of_single hr _ _).trans (contrEquiv1_symm_val d K hrank hsize k)
    | ⟨1, _⟩ => exact hr1 _ _
  rw [e1, e2]

end Cert.LibDotLT

end
-- ==== Proof.LibWords.lean ====
/-
  Words and numbers.

  One-bit words widened to 32 bits, read as signed integers or as words of naturals; the signed comparisons by the
  integers; a natural number below 2^31 converted from the extended reals to a 32-bit word; and 32-bit words of
  naturals added up.
-/
import Idealize.ShloMosaic.PureOps.Ideal
import Idealize.ShloMosaic.PureOps.Reduce
import Mathlib.Algebra.BigOperators.Fin

noncomputable section

open Idealize.ShloMosaic Finset

namespace Cert.LibWords

/-- A one-bit word widened to 32 bits and read as a signed integer is the bit. -/
theorem toInt_setWidth_bit (b : BitVec 1) : (b.setWidth 32).toInt = (b.toNat : ℤ) := by
  rcases BitVec.eq_zero_or_eq_one b with h | h <;> subst h <;> decide

/-- A signed "less than" word that is 1 says the integers compare. -/
theorem lt_of_cmpi_slt {x y : BitVec 32} (h : IntOp.cmpi .slt x y = 1#1) : x.toInt < y.toInt := by
  by_contra hn
  have e : IntOp.cmpi .slt x y = 0#1 := by
    show BitVec.ofBool (x.slt y) = 0#1
    rw [show x.slt y = false from by simp [BitVec.slt, hn]]
    rfl
  rw [e] at h
  exact absurd h (by decide)

/-- The signed "greater than" word, by the integers. -/
theorem cmpi_sgt_eq (x y : BitVec 32) : IntOp.cmpi .sgt x y = BitVec.ofBool (decide (y.toInt < x.toInt)) := by
  show BitVec.ofBool (y.slt x) = _
  simp [BitVec.slt]

/-- A natural number below 2^31, as an extended real, converts to the 32-bit word of that number. -/
theorem fptosi_natCast (n : ℕ) (hn : n < 2 ^ 31) : Ideal.fptosi 32 ((n : ℕ) : EReal) = BitVec.ofNat 32 n := by
  unfold Ideal.fptosi
  rw [← EReal.coe_natCast, Ideal.toIntClamped_coe, if_pos (Nat.cast_nonneg n), Int.floor_natCast]
  have h1 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    have hn' : (n : ℤ) < 2147483648 := by exact_mod_cast (by norm_num at hn ⊢; exact hn : n < 2147483648)
    omega
  rw [h1]
  exact BitVec.ofInt_natCast _ _

/-- Words of natural numbers added up from zero give the word of the sum. -/
theorem fold_addi_ofNat {ι : Type} (S : Finset ι) (n : ι → ℕ) :
    S.fold IntOp.addi (0#32) (fun k => BitVec.ofNat 32 (n k)) = BitVec.ofNat 32 (∑ k ∈ S, n k) := by
  classical
  induction S using Finset.induction_on with
  | empty => rfl
  | insert a S ha ih =>
    rw [Finset.fold_insert ha, ih, Finset.sum_insert ha]
    show BitVec.ofNat 32 (n a) + BitVec.ofNat 32 _ = _
    rw [BitVec.ofNat_add]

/-- A one-bit word widened to 32 bits is the word of the bit. -/
theorem setWidth_bit (b : BitVec 1) : b.setWidth 32 = BitVec.ofNat 32 b.toNat := by
  rcases BitVec.eq_zero_or_eq_one b with h | h <;> subst h <;> decide

end Cert.LibWords
-- ==== Proof.LibOneHot.lean ====
/-
  Selecting one class by a one-hot weight.

  A label is a 32-bit word `w`; class `q` (one of `n`) weighs 1 when `w` is the word of `q` and 0 otherwise. A kernel
  typically builds the weight as the comparison bit widened to 32 bits and read as a signed integer, a host program as the
  comparison bit read as an unsigned integer: both are this weight, at the exact (extended-real) values.

  When the label is the word of some class `p` (and the classes are few enough for their words to be distinct,
  n ≤ 2^32), a sum over the classes weighted this way keeps exactly the term at `p`: Σ_q f q · weight q = f p, since every
  other term is a product with zero — which is zero for every extended real, infinities included, so no finiteness is
  used. Hence adding a bias after the weighted sum or inside it gives the same number, f p + β.

  A label that is at least 0 and less than n as a signed integer (n < 2^31) is the word of a class.
-/
import Idealize.ShloMosaic.PureOps.Ideal
import Idealize.ShloMosaic.PureOps.Ideal.Laws
import proofs.«131790_j77446850281785_1_alg».proof.Proof.LibWords

noncomputable section

open scoped BigOperators

namespace Cert.LibOneHot

open Idealize.ShloMosaic

/-- The weight of class `q` for the label word `w`. -/
def weight {n : ℕ} (w : BitVec 32) (q : Fin n) : EReal := if w = BitVec.ofNat 32 q.val then 1 else 0

/-- The comparison bit "the word of q equals w", widened to 32 bits and read as a signed integer, is the weight. -/
theorem sitofp_extui_eq {n : ℕ} (w : BitVec 32) (q : Fin n) :
    FloatOps.sitofp (F := Ideal) .f32 ((IntOp.cmpi .eq (BitVec.ofNat 32 q.val) w).setWidth 32) = weight w q := by
  show (((((IntOp.cmpi .eq (BitVec.ofNat 32 q.val) w).setWidth 32).toInt : ℤ) : ℝ) : EReal) = _
  rw [Cert.LibWords.toInt_setWidth_bit]
  unfold weight
  by_cases h : w = BitVec.ofNat 32 q.val
  · rw [if_pos h, h]
    have : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [this]; norm_num
  · rw [if_neg h]
    have : IntOp.cmpi .eq (BitVec.ofNat 32 q.val) w = 0#1 := by
      show BitVec.ofBool (BitVec.ofNat 32 q.val == w) = 0#1
      rw [show (BitVec.ofNat 32 q.val == w) = false from beq_eq_false_iff_ne.mpr (fun e => h e.symm)]; rfl
    rw [this]; norm_num

/-- The comparison bit "w equals the word of q", read as an unsigned integer, is the weight. -/
theorem uitofp_eq {n : ℕ} (w : BitVec 32) (q : Fin n) :
    FloatOps.uitofp (F := Ideal) .f32 (IntOp.cmpi .eq w (BitVec.ofNat 32 q.val)) = weight w q := by
  show ((((IntOp.cmpi .eq w (BitVec.ofNat 32 q.val)).toNat : ℕ) : ℝ) : EReal) = _
  unfold weight
  by_cases h : w = BitVec.ofNat 32 q.val
  · rw [if_pos h, h]
    have : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [this]; norm_num
  · rw [if_neg h]
    have : IntOp.cmpi .eq w (BitVec.ofNat 32 q.val) = 0#1 := by
      show BitVec.ofBool (w == BitVec.ofNat 32 q.val) = 0#1
      rw [show (w == BitVec.ofNat 32 q.val) = false from beq_eq_false_iff_ne.mpr h]; rfl
    rw [this]; norm_num

/-- For the word of class `p`, the weight of `q` is 1 at `q = p` and 0 elsewhere. -/
theorem weight_ofNat {n : ℕ} (hn : n ≤ 2 ^ 32) (p q : Fin n) :
    weight (BitVec.ofNat 32 p.val) q = if q = p then 1 else 0 := by
  unfold weight
  by_cases h : q = p
  · rw [if_pos h, h, if_pos rfl]
  · rw [if_neg h, if_neg]
    intro e
    apply h
    have := congrArg BitVec.toNat e
    rw [BitVec.toNat_ofNat, BitVec.toNat_ofNat] at this
    have hp := p.isLt; have hq := q.isLt
    apply Fin.ext
    omega

/-- A weighted sum for the word of class `p` keeps the term at `p`. -/
theorem sum_weight {n : ℕ} (hn : n ≤ 2 ^ 32) (p : Fin n) (f : Fin n → EReal) :
    ∑ q : Fin n, f q * weight (BitVec.ofNat 32 p.val) q = f p := by
  rw [Finset.sum_eq_single p]
  · rw [weight_ofNat hn, if_pos rfl, mul_one]
  · intro q _ hq; rw [weight_ofNat hn, if_neg hq, mul_zero]
  · intro h; exact absurd (Finset.mem_univ p) h

/-- For the word of a class, a bias added after the weighted sum is the bias added inside it (with the sum started from
    the zero word). -/
theorem bias_after_eq_bias_inside {n : ℕ} (hn : n ≤ 2 ^ 32) (p : Fin n) (f : Fin n → EReal) (β : EReal) :
    (∑ q : Fin n, f q * weight (BitVec.ofNat 32 p.val) q) + β
      = Ideal.ofBits .f32 0x00000000#32 + ∑ q : Fin n, (f q + β) * weight (BitVec.ofNat 32 p.val) q := by
  rw [sum_weight hn p f, sum_weight hn p (fun q => f q + β), Ideal.ofBits_zero_f32, zero_add]

/-- A label word at least 0 and below n, as signed integers, is the word of a class. -/
theorem exists_class_of_range {n : ℕ} (hn : n < 2 ^ 31) (w : BitVec 32) (h0 : IntOp.cmpi .sge w 0#32 = 1#1)
    (h1 : IntOp.cmpi .slt w (BitVec.ofNat 32 n) = 1#1) : ∃ p : Fin n, w = BitVec.ofNat 32 p.val := by
  have l1 : w.toInt < (BitVec.ofNat 32 n).toInt := Cert.LibWords.lt_of_cmpi_slt h1
  have l0 : (0 : ℤ) ≤ w.toInt := by
    by_contra hneg
    have e : IntOp.cmpi .sge w 0#32 = 0#1 := by
      show BitVec.ofBool ((0#32 : BitVec 32).sle w) = 0#1
      rw [show (0#32 : BitVec 32).sle w = false from by simp [BitVec.sle]; omega]
      rfl
    rw [e] at h0
    exact absurd h0 (by decide)
  have en : (BitVec.ofNat 32 n).toInt = (n : ℤ) := by
    have := BitVec.toInt_eq_toNat_cond (BitVec.ofNat 32 n)
    rw [BitVec.toNat_ofNat] at this
    split_ifs at this <;> omega
  rw [en] at l1
  have hlt : w.toNat < n := by
    have := BitVec.toInt_eq_toNat_cond w
    have hw := w.isLt
    split_ifs at this <;> omega
  refine ⟨⟨w.toNat, hlt⟩, BitVec.eq_of_toNat_eq ?_⟩
  show w.toNat = (BitVec.ofNat 32 w.toNat).toNat
  rw [BitVec.toNat_ofNat]
  have := w.isLt
  omega

end Cert.LibOneHot

end
-- ==== Proof.KernelPayload.lean ====
/-
  The kernel body's arithmetic at one entry.

  At a grid point the body holds one row of 1024 position indices, the 2048 leading rows of the table and a
  [1024, 512] tile of x. It forms, for every table row v and every position r of the tile, the weight "v is the index of
  r" (1 or 0), multiplies the weights' transpose with the table rows — entry (r, d) is Σ_v weight(v, r) · table(v, d) —
  and adds the tile of x. When position r's index is the word of a row p below 2048, the weighted sum keeps exactly the
  term at p: the entry is x(r, d) + table(p, d). Every other term is a product with zero, which is zero for every
  extended real, so no finiteness is used.
-/
import proofs.«131790_j77446850281785_1_alg».proof.Proof.Gen.KernelIdeal.Skeleton
import proofs.«131790_j77446850281785_1_alg».proof.Proof.LibDotLT
import proofs.«131790_j77446850281785_1_alg».proof.Proof.LibOneHot
import Idealize.ShloMosaic.Lib.ValueIdx
import Idealize.ShloMosaic.Lib.ValueLayout
import Idealize.ShloMosaic.Lib.Pipeline.Value

noncomputable section

open scoped BigOperators

namespace Cert.KernelIdeal.KValue

open Cert.KernelIdeal Cert.KernelIdeal.Gen Idealize.ShloMosaic Idealize.ShloMosaic.ValueIdx

/-- The weight the body builds for table row `v` at tile position `r`: 1 when the word of `v` is the position's index,
    else 0. -/
theorem weight_apply (v0 : Vec Ideal S1x1024 .i32) (v : Fin 2048) (r : Fin 1024) :
    (truncf (F := Ideal) .bf16
      (sitofp (F := Ideal) .f32
        (extui 32
          (cmpi .eq (iota .tc S2048x1024 32 [0] Facts₀.iota_S2048x1024_d0_w32)
            (broadcastTo S2048x1024 v0 Facts₀.broadcasts_S1x1024_S2048x1024))
          Facts₀.natLt_1_32))
      Facts₀.bitsLt_bf16_f32) (ix2 v r)
      = Cert.LibOneHot.weight (v0 (ix2 (0 : Fin 1) r)) v := by
  rw [truncf_apply, sitofp_apply, extui_apply]
  refine Eq.trans ?_ (Cert.LibOneHot.sitofp_extui_eq (v0 (ix2 (0 : Fin 1) r)) v)
  refine congrArg (fun b : BitVec 1 => FloatOps.sitofp (F := Ideal) .f32 (b.setWidth 32)) ?_
  show IntOp.cmpi .eq (BitVec.ofNat 32 _) _ = IntOp.cmpi .eq (BitVec.ofNat 32 v.val) _
  refine congrArg₂ (IntOp.cmpi .eq) ?_ ?_
  · exact congrArg (BitVec.ofNat 32) (by simp [List.foldl])
  · rw [broadcastTo_1b_ab_apply]

/-- The body's result at tile entry (r, d), when position r's index is the word of table row p. -/
theorem pay_apply (v0 : Vec Ideal S1x1024 .i32) (v8 : Vec Ideal S2048x512 .bf16) (v11 : Vec Ideal S1x1024x512 .f32)
    (r : Fin 1024) (d : Fin 512) (p : Fin 2048) (hp : v0 (ix2 (0 : Fin 1) r) = BitVec.ofNat 32 p.val) :
    k0_pay1 v0 v8 v11 (ix3 (0 : Fin 1) r d) = v11 (ix3 (0 : Fin 1) r d) + v8 (ix2 p d) := by
  unfold k0_pay1
  dsimp only
  rw [shapeCast_ab_1ab_apply, addf_apply, shapeCast_1ab_ab_apply]
  refine congrArg (v11 (ix3 (0 : Fin 1) r d) + ·) ?_
  refine (Cert.LibDotLT.matmulLT_zero_apply dot_S2048x1024_S2048x512_S1024x512_0_0_1_1_n_n rfl rfl rfl rfl
    (fun _ _ => rfl) (fun _ _ => rfl) none _ _ r d).trans ?_
  rw [shapeCast_self, shapeCast_self]
  refine Eq.trans (Finset.sum_congr rfl fun v _ => ?_) (Cert.LibOneHot.sum_weight (by norm_num) p (fun v => v8 (ix2 v d)))
  rw [weight_apply, hp, mul_comm]

end Cert.KernelIdeal.KValue

end
-- ==== Proof.KernelFinal.lean ====
/-
  From the grid points' tiles to the kernel's whole result.

  At point t the three staged blocks are blocks of: the index array (the shared index function of the token ids, as one
  row), the argument x, and the 2048 leading rows of the table. Entry (r, d) of the tile the body writes is, by the
  body's arithmetic, x at position 1024·t + r plus the table row that position's index names — the common result
  function at that position. The 32 tiles cover the result, so after the run the result array is that function.
-/
import proofs.«131790_j77446850281785_1_alg».proof.Proof.KernelBlocks
import proofs.«131790_j77446850281785_1_alg».proof.Proof.KernelV
import proofs.«131790_j77446850281785_1_alg».proof.Proof.KernelPayload

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The common result function of core `c`'s arguments. -/
abbrev result (c : Dev nD) : S1x32768x512.Idx → EReal :=
  Cert.Spec.out (Cert.Spec.posOf kfacts (m ((c : Thread nD τ).loc main_arg0)))
    (m ((c : Thread nD τ).loc main_arg1)) (m ((c : Thread nD τ).loc main_arg2))

/-- The staged index row is a block of the index array. -/
theorem iblk0_eq (c : Dev nD) (t : Fin cfg0.N) :
    iblk m c 0 t = ((cfg0.win 0).blk t).view.read (Elt Ideal)
      (fun i => shapeCast S1x32768 (Cert.Spec.posOf kfacts (m ((c : Thread nD τ).loc main_arg0)))
        Facts₀.shapeCasts_S32768_S1x32768 i) :=
  congrArg (((cfg0.win 0).blk t).view.read (Elt Ideal)) (V_pos m c)

/-- The staged tile of x is a block of the argument. -/
theorem iblk1_eq (c : Dev nD) (t : Fin cfg0.N) :
    iblk m c 1 t = ((cfg0.win 1).blk t).view.read (Elt Ideal) (m ((c : Thread nD τ).loc main_arg1)) :=
  congrArg (((cfg0.win 1).blk t).view.read (Elt Ideal)) (V_main_arg1 m c)

/-- The staged table rows are the leading rows of the table. -/
theorem iblk2_eq (c : Dev nD) (t : Fin cfg0.N) :
    iblk m c 2 t = ((cfg0.win 2).blk t).view.read (Elt Ideal)
      (truncf (F := Ideal) .bf16
        (fun i => shapeCast S2048x512
          (extractStridedSlice S1x2048x512 ![0, 0, 0] (m ((c : Thread nD τ).loc main_arg2))
            Facts₀.slices_S1x40000x512_S1x2048x512_0_0_0)
          Facts₀.shapeCasts_S1x2048x512_S2048x512 i)
        Facts₀.bitsLt_bf16_f32) :=
  congrArg (((cfg0.win 2).blk t).view.read (Elt Ideal)) (V_pe m c)

/-- WHAT POINT t WRITES BACK is tile t of the common result function, when every position's index is the word of a
    table row below 2048. -/
theorem flushed_eq (c : Dev nD)
    (hP : ∀ T : Fin 32768, ∃ p : Fin 2048,
      Cert.Spec.posOf kfacts (m ((c : Thread nD τ).loc main_arg0)) (ix1 T) = BitVec.ofNat 32 p.val)
    (t : Fin cfg0.N) :
    (dats m 0 c).flushed 3 t = ((cfg0.win 3).blk t).view.read (Elt Ideal) (result m c) := by
  rw [Cert.KernelIdeal.Value.flushed3]
  unfold out0_3
  rw [View.canon_unit_zero hz3]
  simp only [View.ld_unit_zero (S := S1x1024) hz2, View.ld_unit_zero (S := S2048x512) hz2,
    View.ld_unit_zero (S := S1x1024x512) hz3]
  funext j
  obtain ⟨a, r, d, rfl⟩ : ∃ (a : Fin 1) (r : Fin 1024) (d : Fin 512), j = ix3 a r d := ⟨j 0, j 1, j 2, eq_ix3 j⟩
  obtain rfl : a = 0 := Subsingleton.elim _ _
  obtain ⟨p, hp⟩ := hP (posAt t r)
  show k0_pay1 (iblk m c 0 t) (iblk m c 2 t) (iblk m c 1 t) (ix3 (0 : Fin 1) r d)
    = result m c (((cfg0.win 3).blk t).view.emb (ix3 (0 : Fin 1) r d))
  refine (pay_apply (iblk m c 0 t) (iblk m c 2 t) (iblk m c 1 t) r d p ?_).trans ?_
  · exact (congrFun (iblk0_eq m c t) (ix2 (0 : Fin 1) r)).trans
      ((blk0_read _ t r).trans ((shapeCast_a_1a_apply _ _ _ _).trans hp))
  · refine (congrArg₂ (fun a b : EReal => a + b)
      ((congrFun (iblk1_eq m c t) (ix3 (0 : Fin 1) r d)).trans (blk1_read _ t r d))
      ((congrFun (iblk2_eq m c t) (ix2 p d)).trans ((blk2_read _ t p d).trans
        (pe_rows_apply _ p d (Cert.Spec.row (BitVec.ofNat 32 p.val)) (row_ofNat p))))).trans ?_
    rw [emb3_apply]
    refine ((Cert.Spec.out_apply _ _ _ (posAt t r) d).trans ?_).symm
    rw [hp]

/-- THE RESULT ARRAY after the run is the common result function. -/
theorem final (c : Dev nD)
    (hP : ∀ T : Fin 32768, ∃ p : Fin 2048,
      Cert.Spec.posOf kfacts (m ((c : Thread nD τ).loc main_arg0)) (ix1 T) = BitVec.ofNat 32 p.val) :
    (dats m 0 c).arrAt 3 cfg0.N = result m c :=
  (dats m 0 c).arrAt_eq_of_cover 3 (result m c) (fun t _ => flushed_eq m c hP t) cover

/-- The kernel's run: the result array ends at the common result function of the arguments, which end unchanged. -/
theorem run
    (hP : ∀ (c : Dev nD) (T : Fin 32768), ∃ p : Fin 2048,
      Cert.Spec.posOf kfacts (m ((c : Thread nD τ).loc main_arg0)) (ix1 T) = BitVec.ofNat 32 p.val) :
    θ_run defs (onTc (τ := τ) (main (F := Ideal))) ⟨m, fun _ => 0, ρ⟩ fun r => ∀ c : Dev nD,
      r.2.mem ((c : Thread nD τ).loc main_v35) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hP c)), (h c).2⟩)
    (Cert.KernelIdeal.Value.run_blocks m ρ)

end Cert.KernelIdeal.KValue

end
-- ==== Proof.RefRun.lean ====
/-
  The reference program as a straight line, and its run.

  The reference's entry function is a sequence of whole-array operations with one call, whose callee (itself calling
  one more function) is three more operations. Unfolding the calls at the call site gives one list of fifty-eight
  operations over the program's buffers. Run from any memory, that list terminates and leaves every buffer at the
  fold of the operations over the launch contents; no operation writes an argument buffer, so the three arguments
  end as they were launched.
-/
import proofs.«131790_j77446850281785_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

/-- The entry function's operations in order, the call unfolded: the callee's three operations (a zero, the zero as the
    initial value, the windowed sum over all earlier positions) stand where the call stood, over the call's buffers. -/
abbrev ops : List (HloOp τ sig (Elt F)) :=
  [ reshape main_arg0 main_v0 rfl shapeCasts_S1x32768_S32768,
    nullary main_v1 (iotaInDim S32768 32 0),
    nullary main_c (constantI S_ 32 32768#32),
    unary main_c main_v2 (broadcastInDim S2048 ![] bcast_S_S2048 : (⟨S_, .i32⟩ : BufTy).Contents (Elt F) → (⟨S2048, .i32⟩ : BufTy).Contents (Elt F)),
    nullary main_c_0 (constantI S_ 32 0#32),
    unary main_c_0 main_v3 (broadcastInDim S32768 ![] bcast_S_S32768 : (⟨S_, .i32⟩ : BufTy).Contents (Elt F) → (⟨S32768, .i32⟩ : BufTy).Contents (Elt F)),
    binary main_v0 main_v3 main_v4 (cmpi .slt : (⟨S32768, .i32⟩ : BufTy).Contents (Elt F) → (⟨S32768, .i32⟩ : BufTy).Contents (Elt F) → (⟨S32768, .i1⟩ : BufTy).Contents (Elt F)),
    nullary main_c_1 (constantI S_ 32 2048#32),
    unary main_c_1 main_v5 (broadcastInDim S32768 ![] bcast_S_S32768 : (⟨S_, .i32⟩ : BufTy).Contents (Elt F) → (⟨S32768, .i32⟩ : BufTy).Contents (Elt F)),
    binary main_v0 main_v5 main_v6 (addi : (⟨S32768, .i32⟩ : BufTy).Contents (Elt F) → (⟨S32768, .i32⟩ : BufTy).Contents (Elt F) → (⟨S32768, .i32⟩ : BufTy).Contents (Elt F)),
    ternary main_v4 main_v6 main_v0 main_v7 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v7 main_v8 (broadcastInDim S32768x1 ![0] bcast_S32768_S32768x1_0 : (⟨S32768, .i32⟩ : BufTy).Contents (Elt F) → (⟨S32768x1, .i32⟩ : BufTy).Contents (Elt F)),
    ternary main_v2 main_v8 main_v1 main_v9 ((fun x i u => Host.scatter scatter_S2048_S32768x1_S32768_n_0_0_1 IntOp.minsi x i u) : (⟨S2048, .i32⟩ : BufTy).Contents (Elt F) → (⟨S32768x1, .i32⟩ : BufTy).Contents (Elt F) → (⟨S32768, .i32⟩ : BufTy).Contents (Elt F) → (⟨S2048, .i32⟩ : BufTy).Contents (Elt F)),
    nullary main_c_2 (constantI S_ 32 0#32),
    unary main_c_2 main_v10 (broadcastInDim S32768 ![] bcast_S_S32768 : (⟨S_, .i32⟩ : BufTy).Contents (Elt F) → (⟨S32768, .i32⟩ : BufTy).Contents (Elt F)),
    binary main_v0 main_v10 main_v11 (cmpi .slt : (⟨S32768, .i32⟩ : BufTy).Contents (Elt F) → (⟨S32768, .i32⟩ : BufTy).Contents (Elt F) → (⟨S32768, .i1⟩ : BufTy).Contents (Elt F)),
    nullary main_c_3 (constantI S_ 32 2048#32),
    unary main_c_3 main_v12 (broadcastInDim S32768 ![] bcast_S_S32768 : (⟨S_, .i32⟩ : BufTy).Contents (Elt F) → (⟨S32768, .i32⟩ : BufTy).Contents (Elt F)),
    binary main_v0 main_v12 main_v13 (addi : (⟨S32768, .i32⟩ : BufTy).Contents (Elt F) → (⟨S32768, .i32⟩ : BufTy).Contents (Elt F) → (⟨S32768, .i32⟩ : BufTy).Contents (Elt F)),
    ternary main_v11 main_v13 main_v0 main_v14 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v14 main_v15 (broadcastInDim S32768x1 ![0] bcast_S32768_S32768x1_0 : (⟨S32768, .i32⟩ : BufTy).Contents (Elt F) → (⟨S32768x1, .i32⟩ : BufTy).Contents (Elt F)),
    binary main_v9 main_v15 main_v16 ((fun x i => Host.gather gather_S2048_S32768x1_S32768_n_0_n_n_0_1_1 x i) : (⟨S2048, .i32⟩ : BufTy).Contents (Elt F) → (⟨S32768x1, .i32⟩ : BufTy).Contents (Elt F) → (⟨S32768, .i32⟩ : BufTy).Contents (Elt F)),
    binary main_v1 main_v16 main_v17 (cmpi .eq : (⟨S32768, .i32⟩ : BufTy).Contents (Elt F) → (⟨S32768, .i32⟩ : BufTy).Contents (Elt F) → (⟨S32768, .i1⟩ : BufTy).Contents (Elt F)),
    unary main_v17 main_v18 ((extui 32 · natLt_1_32) : (⟨S32768, .i1⟩ : BufTy).Contents (Elt F) → (⟨S32768, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v18 : TRef sig ⟨S32768, .i32⟩) (.of main_call0_call0_v0 : TRef sig ⟨S_, .i32⟩) (.of main_v19 : TRef sig ⟨S32768, .i32⟩) (fun x v => Host.reduceWindow IntOp.addi ![32768] ![1] ![32767] ![0] x v reduceWindows_S32768_S32768_w32768s1p32767_0 h_S_),
    nullary main_c_4 (constantI S_ 32 1#32),
    unary main_c_4 main_v20 (broadcastInDim S32768 ![] bcast_S_S32768 : (⟨S_, .i32⟩ : BufTy).Contents (Elt F) → (⟨S32768, .i32⟩ : BufTy).Contents (Elt F)),
    binary main_v19 main_v20 main_v21 (subi : (⟨S32768, .i32⟩ : BufTy).Contents (Elt F) → (⟨S32768, .i32⟩ : BufTy).Contents (Elt F) → (⟨S32768, .i32⟩ : BufTy).Contents (Elt F)),
    nullary main_c_5 (constantI S_ 32 0#32),
    unary main_c_5 main_v22 (broadcastInDim S32768 ![] bcast_S_S32768 : (⟨S_, .i32⟩ : BufTy).Contents (Elt F) → (⟨S32768, .i32⟩ : BufTy).Contents (Elt F)),
    binary main_v16 main_v22 main_v23 (cmpi .slt : (⟨S32768, .i32⟩ : BufTy).Contents (Elt F) → (⟨S32768, .i32⟩ : BufTy).Contents (Elt F) → (⟨S32768, .i1⟩ : BufTy).Contents (Elt F)),
    nullary main_c_6 (constantI S_ 32 32768#32),
    unary main_c_6 main_v24 (broadcastInDim S32768 ![] bcast_S_S32768 : (⟨S_, .i32⟩ : BufTy).Contents (Elt F) → (⟨S32768, .i32⟩ : BufTy).Contents (Elt F)),
    binary main_v16 main_v24 main_v25 (addi : (⟨S32768, .i32⟩ : BufTy).Contents (Elt F) → (⟨S32768, .i32⟩ : BufTy).Contents (Elt F) → (⟨S32768, .i32⟩ : BufTy).Contents (Elt F)),
    ternary main_v23 main_v25 main_v16 main_v26 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v26 main_v27 (broadcastInDim S32768x1 ![0] bcast_S32768_S32768x1_0 : (⟨S32768, .i32⟩ : BufTy).Contents (Elt F) → (⟨S32768x1, .i32⟩ : BufTy).Contents (Elt F)),
    binary main_v21 main_v27 main_v28 ((fun x i => Host.gather gather_S32768_S32768x1_S32768_n_0_n_n_0_1_1 x i) : (⟨S32768, .i32⟩ : BufTy).Contents (Elt F) → (⟨S32768x1, .i32⟩ : BufTy).Contents (Elt F) → (⟨S32768, .i32⟩ : BufTy).Contents (Elt F)),
    nullary main_c_7 (constantI S_ 32 39999#32),
    unary main_c_7 main_v29 (broadcastInDim S32768 ![] bcast_S_S32768 : (⟨S_, .i32⟩ : BufTy).Contents (Elt F) → (⟨S32768, .i32⟩ : BufTy).Contents (Elt F)),
    binary main_v28 main_v29 main_v30 (minsi : (⟨S32768, .i32⟩ : BufTy).Contents (Elt F) → (⟨S32768, .i32⟩ : BufTy).Contents (Elt F) → (⟨S32768, .i32⟩ : BufTy).Contents (Elt F)),
    nullary main_c_8 (constantI S_ 32 0#32),
    unary main_c_8 main_v31 (broadcastInDim S32768 ![] bcast_S_S32768 : (⟨S_, .i32⟩ : BufTy).Contents (Elt F) → (⟨S32768, .i32⟩ : BufTy).Contents (Elt F)),
    binary main_v30 main_v31 main_v32 (cmpi .slt : (⟨S32768, .i32⟩ : BufTy).Contents (Elt F) → (⟨S32768, .i32⟩ : BufTy).Contents (Elt F) → (⟨S32768, .i1⟩ : BufTy).Contents (Elt F)),
    nullary main_c_9 (constantI S_ 32 40000#32),
    unary main_c_9 main_v33 (broadcastInDim S32768 ![] bcast_S_S32768 : (⟨S_, .i32⟩ : BufTy).Contents (Elt F) → (⟨S32768, .i32⟩ : BufTy).Contents (Elt F)),
    binary main_v30 main_v33 main_v34 (addi : (⟨S32768, .i32⟩ : BufTy).Contents (Elt F) → (⟨S32768, .i32⟩ : BufTy).Contents (Elt F) → (⟨S32768, .i32⟩ : BufTy).Contents (Elt F)),
    ternary main_v32 main_v34 main_v30 main_v35 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_10 (constantI S_ 32 0#32),
    unary main_c_10 main_v36 (broadcastInDim S32768 ![] bcast_S_S32768 : (⟨S_, .i32⟩ : BufTy).Contents (Elt F) → (⟨S32768, .i32⟩ : BufTy).Contents (Elt F)),
    unary main_v36 main_v37 (id : (⟨S32768, .i32⟩ : BufTy).Contents (Elt F) → (⟨S32768, .i32⟩ : BufTy).Contents (Elt F)),
    unary main_v37 main_v38 (broadcastInDim S32768x1 ![0] bcast_S32768_S32768x1_0 : (⟨S32768, .i32⟩ : BufTy).Contents (Elt F) → (⟨S32768x1, .i32⟩ : BufTy).Contents (Elt F)),
    unary main_v35 main_v39 (broadcastInDim S32768x1 ![0] bcast_S32768_S32768x1_0 : (⟨S32768, .i32⟩ : BufTy).Contents (Elt F) → (⟨S32768x1, .i32⟩ : BufTy).Contents (Elt F)),
    binary main_v38 main_v39 main_v40 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    binary main_arg2 main_v40 main_v41 ((fun x i => Host.gather gather_S1x40000x512_S32768x2_S32768x512_1_01_n_n_01_1_11512 x i) : (⟨S1x40000x512, .f32⟩ : BufTy).Contents (Elt F) → (⟨S32768x2, .i32⟩ : BufTy).Contents (Elt F) → (⟨S32768x512, .f32⟩ : BufTy).Contents (Elt F)),
    unary main_v41 main_v42 (broadcastInDim S1x32768x512 ![1, 2] bcast_S32768x512_S1x32768x512_1_2 : (⟨S32768x512, .f32⟩ : BufTy).Contents (Elt F) → (⟨S1x32768x512, .f32⟩ : BufTy).Contents (Elt F)),
    binary main_arg1 main_v42 main_v43 (addf : (⟨S1x32768x512, .f32⟩ : BufTy).Contents (Elt F) → (⟨S1x32768x512, .f32⟩ : BufTy).Contents (Elt F) → (⟨S1x32768x512, .f32⟩ : BufTy).Contents (Elt F)) ]

-- fifty-eight binds re-associated: the rewrite under the chain recurses once per statement
set_option maxRecDepth 2048 in
/-- The entry function is that straight line: the two callees' definitions unfolded at their calls, both sides are one
    chain of single-operation steps once sequencing is re-associated. -/
theorem main_eq (c : Dev nD) : main (F := F) c = seq ops := by
  simp only [main, fn_cumsum.body, fn_cumsum_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one processor only. -/
theorem ops_sub : (ops : List (HloOp τ sig (Elt F))).Forall fun op => op.bufs ⊆ tcRefs τ sig :=
  ⟨reshape_bufs_sub .., nullary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., unary_bufs_sub .., unary_bufs_sub .., unary_bufs_sub ..,
    binary_bufs_sub .., binary_bufs_sub .., unary_bufs_sub .., binary_bufs_sub ..⟩

/-- From any memory with zero counters, every weakly fair execution of the entry function terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation of the line writes buffer `b`, for `b` one of the three arguments: each operation writes exactly its
    result buffer, and none of the fifty-eight result buffers is an argument. -/
theorem arg0_eq (V : Valuation τ sig (Elt F)) : after ops V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg1_eq (V : Valuation τ sig (Elt F)) : after ops V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg2_eq (V : Valuation τ sig (Elt F)) : after ops V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

/-- The run terminates and leaves the three arguments as launched. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (arg0_eq _), (h c main_arg1).trans (arg1_eq _),
      (h c main_arg2).trans (arg2_eq _)⟩) (run_main m ρ)

end Cert.ReferenceIdeal.RefValue

end
-- ==== Proof.RefTail.lean ====
/-
  The reference's last operations as one term, and the result buffer after the run.

  The first forty-two operations of the line compute the position array (the order of first occurrence of each
  position's token, capped): the shared function `Cert.Spec.posOf` of the token ids. The remaining sixteen take that
  array P, the input x and the table pe: P with a negative entry raised by the table's height; the index array whose
  row t is (0, that entry); the table's rows gathered at those indices; the gathered rows given a leading unit axis;
  the sum with x. `tail` is those sixteen operations as one term of P, x and pe. The line is read in two stretches —
  the position array's term is used three times by the last operations, so it is named once rather than copied —, and
  the result buffer after the whole line is `tail` at the position array.
-/
import proofs.«131790_j77446850281785_1_alg».proof.Proof.RefRun
import proofs.«131790_j77446850281785_1_alg».proof.Proof.Spec
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem
open Idealize.ShloMosaic.StableHlo

variable {F : FTy → Type} [FloatOps F]

/-- The shape relations the position array's steps take, as the reference states them. -/
theorem rfacts : Cert.Spec.PosFacts :=
  ⟨shapeCasts_S1x32768_S32768, bcast_S_S2048, bcast_S_S32768, bcast_S32768_S32768x1_0, natLt_1_32, bcast_S_S_,
    reduceWindows_S32768_S32768_w32768s1p32767_0, h_S_, scatter_S2048_S32768x1_S32768_n_0_0_1_wf,
    gather_S2048_S32768x1_S32768_n_0_n_n_0_1_1_wf, gather_S32768_S32768x1_S32768_n_0_n_n_0_1_1_wf⟩

/-- A 32-bit constant at every position. -/
abbrev splat (w : BitVec 32) : IVec S32768 32 := broadcastInDim S32768 ![] bcast_S_S32768 (constantI S_ 32 w)

/-- The index array: row t is (0, P t), a negative P t first raised by the table's height. -/
def rowIdx (P : IVec S32768 32) : IVec S32768x2 32 :=
  concatenate S32768x2 1
    [⟨S32768x1, broadcastInDim S32768x1 ![0] bcast_S32768_S32768x1_0 (id (splat 0#32))⟩,
     ⟨S32768x1, broadcastInDim S32768x1 ![0] bcast_S32768_S32768x1_0
        (select (cmpi .slt P (splat 0#32)) (addi P (splat 40000#32)) P)⟩]
    concatenates_S32768x1_S32768x1_S32768x2_d1

/-- The last sixteen operations as one term: x plus the table's rows gathered at the index array. -/
def tail (P : IVec S32768 32) (x : FVec F S1x32768x512 .f32) (pe : FVec F S1x40000x512 .f32) :
    FVec F S1x32768x512 .f32 :=
  addf x
    (broadcastInDim S1x32768x512 ![1, 2] bcast_S32768x512_S1x32768x512_1_2
      (Host.gather gather_S1x40000x512_S32768x2_S32768x512_1_01_n_n_01_1_11512 pe (rowIdx P)))

/-- The first forty-two operations: the position array's. -/
abbrev opsA : List (HloOp τ sig (Elt F)) :=
  [ reshape main_arg0 main_v0 rfl shapeCasts_S1x32768_S32768,
    nullary main_v1 (iotaInDim S32768 32 0),
    nullary main_c (constantI S_ 32 32768#32),
    unary main_c main_v2 (broadcastInDim S2048 ![] bcast_S_S2048 : (⟨S_, .i32⟩ : BufTy).Contents (Elt F) → (⟨S2048, .i32⟩ : BufTy).Contents (Elt F)),
    nullary main_c_0 (constantI S_ 32 0#32),
    unary main_c_0 main_v3 (broadcastInDim S32768 ![] bcast_S_S32768 : (⟨S_, .i32⟩ : BufTy).Contents (Elt F) → (⟨S32768, .i32⟩ : BufTy).Contents (Elt F)),
    binary main_v0 main_v3 main_v4 (cmpi .slt : (⟨S32768, .i32⟩ : BufTy).Contents (Elt F) → (⟨S32768, .i32⟩ : BufTy).Contents (Elt F) → (⟨S32768, .i1⟩ : BufTy).Contents (Elt F)),
    nullary main_c_1 (constantI S_ 32 2048#32),
    unary main_c_1 main_v5 (broadcastInDim S32768 ![] bcast_S_S32768 : (⟨S_, .i32⟩ : BufTy).Contents (Elt F) → (⟨S32768, .i32⟩ : BufTy).Contents (Elt F)),
    binary main_v0 main_v5 main_v6 (addi : (⟨S32768, .i32⟩ : BufTy).Contents (Elt F) → (⟨S32768, .i32⟩ : BufTy).Contents (Elt F) → (⟨S32768, .i32⟩ : BufTy).Contents (Elt F)),
    ternary main_v4 main_v6 main_v0 main_v7 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v7 main_v8 (broadcastInDim S32768x1 ![0] bcast_S32768_S32768x1_0 : (⟨S32768, .i32⟩ : BufTy).Contents (Elt F) → (⟨S32768x1, .i32⟩ : BufTy).Contents (Elt F)),
    ternary main_v2 main_v8 main_v1 main_v9 ((fun x i u => Host.scatter scatter_S2048_S32768x1_S32768_n_0_0_1 IntOp.minsi x i u) : (⟨S2048, .i32⟩ : BufTy).Contents (Elt F) → (⟨S32768x1, .i32⟩ : BufTy).Contents (Elt F) → (⟨S32768, .i32⟩ : BufTy).Contents (Elt F) → (⟨S2048, .i32⟩ : BufTy).Contents (Elt F)),
    nullary main_c_2 (constantI S_ 32 0#32),
    unary main_c_2 main_v10 (broadcastInDim S32768 ![] bcast_S_S32768 : (⟨S_, .i32⟩ : BufTy).Contents (Elt F) → (⟨S32768, .i32⟩ : BufTy).Contents (Elt F)),
    binary main_v0 main_v10 main_v11 (cmpi .slt : (⟨S32768, .i32⟩ : BufTy).Contents (Elt F) → (⟨S32768, .i32⟩ : BufTy).Contents (Elt F) → (⟨S32768, .i1⟩ : BufTy).Contents (Elt F)),
    nullary main_c_3 (constantI S_ 32 2048#32),
    unary main_c_3 main_v12 (broadcastInDim S32768 ![] bcast_S_S32768 : (⟨S_, .i32⟩ : BufTy).Contents (Elt F) → (⟨S32768, .i32⟩ : BufTy).Contents (Elt F)),
    binary main_v0 main_v12 main_v13 (addi : (⟨S32768, .i32⟩ : BufTy).Contents (Elt F) → (⟨S32768, .i32⟩ : BufTy).Contents (Elt F) → (⟨S32768, .i32⟩ : BufTy).Contents (Elt F)),
    ternary main_v11 main_v13 main_v0 main_v14 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v14 main_v15 (broadcastInDim S32768x1 ![0] bcast_S32768_S32768x1_0 : (⟨S32768, .i32⟩ : BufTy).Contents (Elt F) → (⟨S32768x1, .i32⟩ : BufTy).Contents (Elt F)),
    binary main_v9 main_v15 main_v16 ((fun x i => Host.gather gather_S2048_S32768x1_S32768_n_0_n_n_0_1_1 x i) : (⟨S2048, .i32⟩ : BufTy).Contents (Elt F) → (⟨S32768x1, .i32⟩ : BufTy).Contents (Elt F) → (⟨S32768, .i32⟩ : BufTy).Contents (Elt F)),
    binary main_v1 main_v16 main_v17 (cmpi .eq : (⟨S32768, .i32⟩ : BufTy).Contents (Elt F) → (⟨S32768, .i32⟩ : BufTy).Contents (Elt F) → (⟨S32768, .i1⟩ : BufTy).Contents (Elt F)),
    unary main_v17 main_v18 ((extui 32 · natLt_1_32) : (⟨S32768, .i1⟩ : BufTy).Contents (Elt F) → (⟨S32768, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v18 : TRef sig ⟨S32768, .i32⟩) (.of main_call0_call0_v0 : TRef sig ⟨S_, .i32⟩) (.of main_v19 : TRef sig ⟨S32768, .i32⟩) (fun x v => Host.reduceWindow IntOp.addi ![32768] ![1] ![32767] ![0] x v reduceWindows_S32768_S32768_w32768s1p32767_0 h_S_),
    nullary main_c_4 (constantI S_ 32 1#32),
    unary main_c_4 main_v20 (broadcastInDim S32768 ![] bcast_S_S32768 : (⟨S_, .i32⟩ : BufTy).Contents (Elt F) → (⟨S32768, .i32⟩ : BufTy).Contents (Elt F)),
    binary main_v19 main_v20 main_v21 (subi : (⟨S32768, .i32⟩ : BufTy).Contents (Elt F) → (⟨S32768, .i32⟩ : BufTy).Contents (Elt F) → (⟨S32768, .i32⟩ : BufTy).Contents (Elt F)),
    nullary main_c_5 (constantI S_ 32 0#32),
    unary main_c_5 main_v22 (broadcastInDim S32768 ![] bcast_S_S32768 : (⟨S_, .i32⟩ : BufTy).Contents (Elt F) → (⟨S32768, .i32⟩ : BufTy).Contents (Elt F)),
    binary main_v16 main_v22 main_v23 (cmpi .slt : (⟨S32768, .i32⟩ : BufTy).Contents (Elt F) → (⟨S32768, .i32⟩ : BufTy).Contents (Elt F) → (⟨S32768, .i1⟩ : BufTy).Contents (Elt F)),
    nullary main_c_6 (constantI S_ 32 32768#32),
    unary main_c_6 main_v24 (broadcastInDim S32768 ![] bcast_S_S32768 : (⟨S_, .i32⟩ : BufTy).Contents (Elt F) → (⟨S32768, .i32⟩ : BufTy).Contents (Elt F)),
    binary main_v16 main_v24 main_v25 (addi : (⟨S32768, .i32⟩ : BufTy).Contents (Elt F) → (⟨S32768, .i32⟩ : BufTy).Contents (Elt F) → (⟨S32768, .i32⟩ : BufTy).Contents (Elt F)),
    ternary main_v23 main_v25 main_v16 main_v26 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v26 main_v27 (broadcastInDim S32768x1 ![0] bcast_S32768_S32768x1_0 : (⟨S32768, .i32⟩ : BufTy).Contents (Elt F) → (⟨S32768x1, .i32⟩ : BufTy).Contents (Elt F)),
    binary main_v21 main_v27 main_v28 ((fun x i => Host.gather gather_S32768_S32768x1_S32768_n_0_n_n_0_1_1 x i) : (⟨S32768, .i32⟩ : BufTy).Contents (Elt F) → (⟨S32768x1, .i32⟩ : BufTy).Contents (Elt F) → (⟨S32768, .i32⟩ : BufTy).Contents (Elt F)),
    nullary main_c_7 (constantI S_ 32 39999#32),
    unary main_c_7 main_v29 (broadcastInDim S32768 ![] bcast_S_S32768 : (⟨S_, .i32⟩ : BufTy).Contents (Elt F) → (⟨S32768, .i32⟩ : BufTy).Contents (Elt F)),
    binary main_v28 main_v29 main_v30 (minsi : (⟨S32768, .i32⟩ : BufTy).Contents (Elt F) → (⟨S32768, .i32⟩ : BufTy).Contents (Elt F) → (⟨S32768, .i32⟩ : BufTy).Contents (Elt F)) ]

/-- The last sixteen operations. -/
abbrev opsB : List (HloOp τ sig (Elt F)) :=
  [ nullary main_c_8 (constantI S_ 32 0#32),
    unary main_c_8 main_v31 (broadcastInDim S32768 ![] bcast_S_S32768 : (⟨S_, .i32⟩ : BufTy).Contents (Elt F) → (⟨S32768, .i32⟩ : BufTy).Contents (Elt F)),
    binary main_v30 main_v31 main_v32 (cmpi .slt : (⟨S32768, .i32⟩ : BufTy).Contents (Elt F) → (⟨S32768, .i32⟩ : BufTy).Contents (Elt F) → (⟨S32768, .i1⟩ : BufTy).Contents (Elt F)),
    nullary main_c_9 (constantI S_ 32 40000#32),
    unary main_c_9 main_v33 (broadcastInDim S32768 ![] bcast_S_S32768 : (⟨S_, .i32⟩ : BufTy).Contents (Elt F) → (⟨S32768, .i32⟩ : BufTy).Contents (Elt F)),
    binary main_v30 main_v33 main_v34 (addi : (⟨S32768, .i32⟩ : BufTy).Contents (Elt F) → (⟨S32768, .i32⟩ : BufTy).Contents (Elt F) → (⟨S32768, .i32⟩ : BufTy).Contents (Elt F)),
    ternary main_v32 main_v34 main_v30 main_v35 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_10 (constantI S_ 32 0#32),
    unary main_c_10 main_v36 (broadcastInDim S32768 ![] bcast_S_S32768 : (⟨S_, .i32⟩ : BufTy).Contents (Elt F) → (⟨S32768, .i32⟩ : BufTy).Contents (Elt F)),
    unary main_v36 main_v37 (id : (⟨S32768, .i32⟩ : BufTy).Contents (Elt F) → (⟨S32768, .i32⟩ : BufTy).Contents (Elt F)),
    unary main_v37 main_v38 (broadcastInDim S32768x1 ![0] bcast_S32768_S32768x1_0 : (⟨S32768, .i32⟩ : BufTy).Contents (Elt F) → (⟨S32768x1, .i32⟩ : BufTy).Contents (Elt F)),
    unary main_v35 main_v39 (broadcastInDim S32768x1 ![0] bcast_S32768_S32768x1_0 : (⟨S32768, .i32⟩ : BufTy).Contents (Elt F) → (⟨S32768x1, .i32⟩ : BufTy).Contents (Elt F)),
    binary main_v38 main_v39 main_v40 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    binary main_arg2 main_v40 main_v41 ((fun x i => Host.gather gather_S1x40000x512_S32768x2_S32768x512_1_01_n_n_01_1_11512 x i) : (⟨S1x40000x512, .f32⟩ : BufTy).Contents (Elt F) → (⟨S32768x2, .i32⟩ : BufTy).Contents (Elt F) → (⟨S32768x512, .f32⟩ : BufTy).Contents (Elt F)),
    unary main_v41 main_v42 (broadcastInDim S1x32768x512 ![1, 2] bcast_S32768x512_S1x32768x512_1_2 : (⟨S32768x512, .f32⟩ : BufTy).Contents (Elt F) → (⟨S1x32768x512, .f32⟩ : BufTy).Contents (Elt F)),
    binary main_arg1 main_v42 main_v43 (addf : (⟨S1x32768x512, .f32⟩ : BufTy).Contents (Elt F) → (⟨S1x32768x512, .f32⟩ : BufTy).Contents (Elt F) → (⟨S1x32768x512, .f32⟩ : BufTy).Contents (Elt F)) ]

/-- The line is the two stretches one after the other. -/
theorem ops_split : (ops : List (HloOp τ sig (Elt F))) = opsA ++ opsB := rfl

attribute [local irreducible] Host.gather Host.scatter Host.reduceWindow in
set_option maxRecDepth 8192 in
set_option maxHeartbeats 1000000 in
/-- After the first stretch the position buffer holds the position array of the token ids: the fold read one operation
    at a time is the shared function's term (the gathers, the scatter and the windowed sum stay folded). -/
theorem posA (V : Valuation τ sig (Elt F)) :
    after opsA V (main_v30 : DevRef τ sig) = Cert.Spec.posOf rfacts (V (main_arg0 : DevRef τ sig)) := by
  after_results_simp
  rfl

/-- The first stretch writes neither the input nor the table. -/
theorem argA1 (V : Valuation τ sig (Elt F)) : after opsA V (main_arg1 : DevRef τ sig) = V (main_arg1 : DevRef τ sig) := by
  after_results_simp
theorem argA2 (V : Valuation τ sig (Elt F)) : after opsA V (main_arg2 : DevRef τ sig) = V (main_arg2 : DevRef τ sig) := by
  after_results_simp

attribute [local irreducible] Host.gather in
set_option maxRecDepth 8192 in
/-- After the second stretch the result buffer holds the last operations' term of what the position buffer, the input
    and the table held before it. -/
theorem tailB (W : Valuation τ sig (Elt F)) :
    after opsB W (main_v43 : DevRef τ sig)
      = tail (W (main_v30 : DevRef τ sig)) (W (main_arg1 : DevRef τ sig)) (W (main_arg2 : DevRef τ sig)) := by
  after_results_simp
  rfl

/-- The result buffer after the line is `tail` at the position array of the token ids: the line is the first stretch then
    the second; the first leaves the position array in its buffer and the input and the table as they were; the second
    leaves `tail` of those three in the result buffer. -/
theorem out_eq (V : Valuation τ sig (Elt F)) :
    after ops V (main_v43 : DevRef τ sig)
      = tail (Cert.Spec.posOf rfacts (V (main_arg0 : DevRef τ sig))) (V (main_arg1 : DevRef τ sig))
          (V (main_arg2 : DevRef τ sig)) := by
  rw [ops_split, StableHlo.after_append, tailB, posA, argA1, argA2]

end Cert.ReferenceIdeal.RefValue

end
-- ==== Proof.LibGatherRows.lean ====
/-
  A gather of table rows: the operand read at clamped start indices.

  The operand is a rank-3 array of extents A × N × D. The start indices are an R × 2 array of integers: row t holds
  a start on the first operand axis and a start on the second. Both of those axes are collapsed (slice size 1), the
  third is the one offset axis (slice size D, the whole axis). The result is R × D: its element (t, d) is the operand
  at (the first start of row t clamped into [0, A − 1], the second start of row t clamped into [0, N − 1], d), each
  start read as a signed integer.
-/
import Idealize.ShloMosaic.PureOps
import Idealize.ShloMosaic.Lib.ValueIdx

noncomputable section

namespace Cert.LibGatherRows

open Idealize.ShloMosaic Idealize.ShloMosaic.ValueIdx

variable {α : Type}

/-- The dimension numbers of that gather, for an operand `[A, N, D]`, start indices `[R, 2]` and result `[R, D]`. -/
abbrev rowsDims (A N D R : Nat)
    (wf : GatherDims.WF ⟨3, ![A, N, D]⟩ ⟨2, ![R, 2]⟩ ⟨2, ![R, D]⟩ [1] [0, 1] [] [0, 1] [] 1 ![1, 1, D]) :
    GatherDims ⟨3, ![A, N, D]⟩ ⟨2, ![R, 2]⟩ ⟨2, ![R, D]⟩ where
  offsetDims := [1]
  collapsedSliceDims := [0, 1]
  operandBatchingDims := []
  startIndicesBatchingDims := []
  startIndexMap := [0, 1]
  indexVectorDim := 1
  sliceSizes := ![1, 1, D]
  wf := wf

/-- The gather read at `(t, d)`: the operand at the two starts of row `t`, each read signed and clamped into its axis,
    and at `d` on the last axis. -/
theorem gather_rows_apply {A N D R w : Nat} (hA : 0 < A) (hN : 0 < N)
    (wf : GatherDims.WF ⟨3, ![A, N, D]⟩ ⟨2, ![R, 2]⟩ ⟨2, ![R, D]⟩ [1] [0, 1] [] [0, 1] [] 1 ![1, 1, D])
    (x : (⟨3, ![A, N, D]⟩ : Shape).Idx → α) (idx : IVec ⟨2, ![R, 2]⟩ w) (t : Fin R) (d : Fin D) :
    Host.gather (rowsDims A N D R wf) x idx (ix2 t d)
      = x (ix3 (⟨min (idx (ix2 t (0 : Fin 2))).toInt.toNat (A - 1), by omega⟩ : Fin A)
            (⟨min (idx (ix2 t (1 : Fin 2))).toInt.toNat (N - 1), by omega⟩ : Fin N) d) := by
  unfold Host.gather
  congr 1
  funext a
  refine Fin.ext ?_
  -- the start-indices index read for component c of row t's start: (t, c)
  have hsi : ∀ c : Fin (rowsDims A N D R wf).startIndexMap.length,
      (rowsDims A N D R wf).siIdx (ix2 t d) c = ix2 t (⟨c.val, c.isLt⟩ : Fin 2) := by
    intro c
    funext b; refine Fin.ext ?_
    match b with
    | ⟨0, _⟩ => rfl
    | ⟨1, _⟩ => rfl
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  match a with
  | ⟨0, _⟩ =>
    show (rowsDims A N D R wf).start (ix2 t d) idx 0 + (rowsDims A N D R wf).batchCoord (ix2 t d) 0
        + (rowsDims A N D R wf).offCoord (ix2 t d) 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos (show (0 : Fin 3) ∈ (rowsDims A N D R wf).startIndexMap from m0), hsi]
    rfl
  | ⟨1, _⟩ =>
    show (rowsDims A N D R wf).start (ix2 t d) idx 1 + (rowsDims A N D R wf).batchCoord (ix2 t d) 1
        + (rowsDims A N D R wf).offCoord (ix2 t d) 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos (show (1 : Fin 3) ∈ (rowsDims A N D R wf).startIndexMap from m1), hsi]
    rfl
  | ⟨2, _⟩ =>
    show (rowsDims A N D R wf).start (ix2 t d) idx 2 + (rowsDims A N D R wf).batchCoord (ix2 t d) 2
        + (rowsDims A N D R wf).offCoord (ix2 t d) 2 = _
    rw [GatherDims.batchCoord_eq_zero _ _ _ List.not_mem_nil]
    unfold GatherDims.start
    rw [dif_neg (show (2 : Fin 3) ∉ (rowsDims A N D R wf).startIndexMap from m2)]
    unfold GatherDims.offCoord
    rw [dif_pos ((GatherDims.mem_sKept (rowsDims A N D R wf) 2).mpr ⟨m2, List.not_mem_nil⟩), Nat.zero_add]
    rfl

end Cert.LibGatherRows

end
-- ==== Proof.RefValue.lean ====
/-
  The reference's result is the common result.

  After the run the result buffer holds the last operations' term at the position array (`out_eq`). Under the
  hypothesis that every entry of the position array is the word of a number below 2048 — a row inside the table and
  not negative — that term is the common result `Cert.Spec.out`: the entry is not raised, the gather's first start is 0
  on an axis of one entry, its second start is the entry itself and the clamp into the table's rows changes nothing,
  and the sum is the extended reals' sum.
-/
import proofs.«131790_j77446850281785_1_alg».proof.Proof.RefTail
import proofs.«131790_j77446850281785_1_alg».proof.Proof.LibGatherRows
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- A word of a natural number below 2048: read unsigned or signed it is the number. -/
theorem word_small (p : Nat) (hp : p < 2048) :
    (BitVec.ofNat 32 p).toNat = p ∧ (BitVec.ofNat 32 p).toInt = (p : Int) := by
  have h1 : (BitVec.ofNat 32 p).toNat = p := by
    rw [BitVec.toNat_ofNat]; exact Nat.mod_eq_of_lt (by omega)
  refine ⟨h1, ?_⟩
  rw [BitVec.toInt_eq_toNat_cond, h1, if_pos (by omega)]

/-- Such a word is not negative: the signed comparison with zero is the bit 0. -/
theorem slt_zero_small (p : Nat) (hp : p < 2048) : IntOp.cmpi .slt (BitVec.ofNat 32 p) 0#32 = 0#1 := by
  show BitVec.ofBool ((BitVec.ofNat 32 p).slt 0#32) = 0#1
  rw [BitVec.slt_eq_decide, (word_small p hp).2, BitVec.toInt_zero, decide_eq_false (by omega)]
  rfl

/-- Row t of the index array, second column: the position array's entry, when that entry is the word of a number
    below 2048 (it is not negative, so it is not raised). -/
theorem rowIdx_snd (P : IVec S32768 32) (t : Fin 32768) (p : Nat) (hp : p < 2048) (h : P (ix1 t) = BitVec.ofNat 32 p) :
    rowIdx P (ix2 t (1 : Fin 2)) = BitVec.ofNat 32 p := by
  unfold rowIdx
  rw [concatenate_pair_apply_right (t := S32768x2) (s₁ := S32768x1) (s₂ := S32768x1) (1 : Fin 2) _ _ _ (ix2 t (1 : Fin 2))
    (rfl : (2 : Nat) = 2) (rfl : (2 : Nat) = 2) (ix2 t (0 : Fin 1))
    (fun b hb => by
      match b with
      | ⟨0, _⟩ => rfl
      | ⟨1, _⟩ => exact absurd rfl hb)
    rfl]
  rw [broadcastInDim_apply _ _ _ _ (ix1 t) (fun a => by match a with | ⟨0, _⟩ => rfl)]
  show Scalar.select (IntOp.cmpi .slt (P (ix1 t)) 0#32) (IntOp.addi (P (ix1 t)) 40000#32) (P (ix1 t)) = _
  rw [h, slt_zero_small p hp, select_zero]

/-- Under the range hypothesis the last operations compute the common result: at batch 0, position t and feature d,
    the gathered row is the table's row `P t` (first start 0 on an axis of one entry; second start `P t`, inside the
    table, so the clamp changes nothing), and the sum is the extended reals'. -/
theorem tail_eq_out (P : IVec S32768 32) (x : FVec Ideal S1x32768x512 .f32) (pe : FVec Ideal S1x40000x512 .f32)
    (hP : ∀ t : Fin 32768, ∃ p : Fin 2048, P (ix1 t) = BitVec.ofNat 32 p.val) :
    tail P x pe = Cert.Spec.out P x pe := by
  funext i
  obtain ⟨a, t, d, rfl⟩ : ∃ (a : Fin 1) (t : Fin 32768) (d : Fin 512), i = ix3 a t d := ⟨i 0, i 1, i 2, eq_ix3 i⟩
  obtain rfl : a = 0 := Subsingleton.elim _ _
  obtain ⟨p, hp⟩ := hP t
  rw [Cert.Spec.out_apply]
  show x (ix3 0 t d) + broadcastInDim S1x32768x512 ![1, 2] bcast_S32768x512_S1x32768x512_1_2
      (Host.gather gather_S1x40000x512_S32768x2_S32768x512_1_01_n_n_01_1_11512 pe (rowIdx P)) (ix3 0 t d) = _
  congr 1
  rw [broadcastInDim_apply _ _ _ _ (ix2 t d) (fun a => by match a with | ⟨0, _⟩ => rfl | ⟨1, _⟩ => rfl)]
  rw [show gather_S1x40000x512_S32768x2_S32768x512_1_01_n_n_01_1_11512
        = Cert.LibGatherRows.rowsDims 1 40000 512 32768 gather_S1x40000x512_S32768x2_S32768x512_1_01_n_n_01_1_11512_wf from rfl,
    Cert.LibGatherRows.gather_rows_apply (by decide) (by decide)]
  congr 1
  funext b
  match b with
  | ⟨0, _⟩ => exact Subsingleton.elim (α := Fin 1) _ _
  | ⟨1, _⟩ =>
    refine Fin.ext ?_
    show min (rowIdx P (ix2 t (1 : Fin 2))).toInt.toNat (40000 - 1) = min (P (ix1 t)).toNat 39999
    rw [rowIdx_snd P t p.val p.isLt hp, hp, (word_small p.val p.isLt).1, (word_small p.val p.isLt).2]
    rfl
  | ⟨2, _⟩ => rfl

/-- From any memory with zero counters whose position array stays inside the first 2048 rows: every weakly fair
    execution of the reference terminates, the result buffer holds the common result of the launched arguments, and
    the three arguments end as launched. -/
theorem run (m : (ℓ : Loc nD τ sig) → Buf (Elt Ideal) ℓ) (ρ : Dev nD → PrngReg)
    (hP : ∀ (c : Dev nD) (t : Fin 32768), ∃ p : Fin 2048,
      Cert.Spec.posOf rfacts (m ((c.tc : Thread nD τ).loc main_arg0)) (ix1 t) = BitVec.ofNat 32 p.val) :
    θ_run (defs (F := Ideal)) (onTc (τ := τ) (main (F := Ideal))) ⟨m, fun _ => 0, ρ⟩ (fun r => ∀ c : Dev nD,
      r.2.mem ((c.tc : Thread nD τ).loc main_v43)
          = Cert.Spec.out (Cert.Spec.posOf rfacts (m ((c.tc : Thread nD τ).loc main_arg0)))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v43).trans ((out_eq (launchContents m c)).trans (tail_eq_out _ _ _ (hP c))),
        (h c main_arg0).trans (arg0_eq _), (h c main_arg1).trans (arg1_eq _), (h c main_arg2).trans (arg2_eq _)⟩)
    (run_main m ρ)

end Cert.ReferenceIdeal.RefValue

end
-- ==== Proof.LibSmallWords.lean ====
/-
  Small natural numbers as 32-bit words.

  For naturals below 2^31 the signed minimum of their words is the word of their minimum, and the signed minimum is
  always one of its two arguments. A word that is non-negative as a signed integer fails the test "less than zero", so a
  select on that test keeps it. Words of naturals below 2^32 are equal only for equal naturals. The word of a positive
  natural less the word 1 is the word of the predecessor. The bit of an equality test, as a number, is 1 for equal
  words and 0 otherwise.
-/
import Idealize.ShloMosaic.PureOps
import Idealize.ShloMosaic.Lib.WordArith
import Idealize.ShloMosaic.Lib.ValueIdx

noncomputable section

namespace Cert.LibSmallWords

open Idealize.ShloMosaic

/-- The signed minimum is one of its arguments. -/
theorem minsi_pick (a b : BitVec 32) : IntOp.minsi a b = a ∨ IntOp.minsi a b = b := by
  unfold IntOp.minsi
  split
  · exact Or.inl rfl
  · exact Or.inr rfl

/-- The signed minimum of the words of two naturals below 2^31 is the word of their minimum. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  have ea := WordArith.toInt_ofNat_small a ha
  have eb := WordArith.toInt_ofNat_small b hb
  by_cases h : (BitVec.ofNat 32 a).slt (BitVec.ofNat 32 b) = true
  · rw [if_pos h]
    rw [BitVec.slt_iff_toInt_lt, ea, eb] at h
    congr 1; omega
  · rw [if_neg h]
    rw [BitVec.slt_iff_toInt_lt, ea, eb] at h
    congr 1; omega

/-- A word that is non-negative as a signed integer is not less than zero. -/
theorem cmpi_slt_zero_of_nonneg (x : BitVec 32) (h : 0 ≤ x.toInt) : IntOp.cmpi .slt x 0#32 = 0#1 := by
  show BitVec.ofBool (x.slt 0#32) = 0#1
  have e : x.slt 0#32 = false := by
    rw [Bool.eq_false_iff]
    intro hs
    rw [BitVec.slt_iff_toInt_lt] at hs
    have z : (0#32 : BitVec 32).toInt = 0 := by decide
    rw [z] at hs
    omega
  rw [e]; rfl

/-- A select on "less than zero" keeps a word that is non-negative as a signed integer. -/
theorem select_neg_fix (x y : BitVec 32) (h : 0 ≤ x.toInt) : Scalar.select (IntOp.cmpi .slt x 0#32) y x = x := by
  rw [cmpi_slt_zero_of_nonneg x h]; exact ValueIdx.select_zero _ _

/-- Words of naturals below 2^32 are equal only for equal naturals. -/
theorem ofNat_inj {a b : ℕ} (ha : a < 2 ^ 32) (hb : b < 2 ^ 32) (h : BitVec.ofNat 32 a = BitVec.ofNat 32 b) : a = b := by
  have := congrArg BitVec.toNat h
  rw [BitVec.toNat_ofNat, BitVec.toNat_ofNat] at this
  omega

/-- The word of a positive natural less the word 1 is the word of its predecessor. -/
theorem ofNat_sub_one (c : ℕ) (hc : 1 ≤ c) : IntOp.subi (BitVec.ofNat 32 c) 1#32 = BitVec.ofNat 32 (c - 1) := by
  obtain ⟨k, rfl⟩ : ∃ k, c = k + 1 := ⟨c - 1, by omega⟩
  show BitVec.ofNat 32 (k + 1) - 1#32 = _
  rw [BitVec.ofNat_add, Nat.add_sub_cancel]
  exact BitVec.add_sub_cancel _ _

/-- The bit of an equality test, as a number. -/
theorem cmpi_eq_toNat (a b : BitVec 32) : (IntOp.cmpi .eq a b).toNat = if a = b then 1 else 0 := by
  show (BitVec.ofBool (a == b)).toNat = _
  by_cases h : a = b
  · subst h; rw [if_pos rfl, beq_self_eq_true]; rfl
  · rw [if_neg h, show (a == b) = false from beq_eq_false_iff_ne.mpr h]; rfl

end Cert.LibSmallWords

end
-- ==== Proof.LibGatherFlat.lean ====
/-
  Reading a flat array at a column of indices.

  A gather of a flat array x of N entries at R indices held as a column (shape [R, 1], one index per row) has, at row t,
  the entry of x at the row's index read as a signed integer and clamped into [0, N - 1].

  A flat array of R entries broadcast to a column [R, 1] has at (t, 0) the array's entry t.
-/
import Idealize.ShloMosaic.PureOps
import Idealize.ShloMosaic.Lib.ValueIdx
import proofs.«131790_j77446850281785_1_alg».proof.Proof.Spec

noncomputable section

namespace Cert.LibGatherFlat

open Idealize.ShloMosaic Idealize.ShloMosaic.ValueIdx

/-- The gather at row t: the array at the row's index, read signed and clamped into [0, N - 1]. -/
theorem gather_flat_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (Cert.Spec.gat1 N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (Cert.Spec.gat1 N R wf).start (ix1 t) idx 0 + (Cert.Spec.gat1 N R wf).batchCoord (ix1 t) 0
    + (Cert.Spec.gat1 N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (Cert.Spec.gat1 N R wf).startIndexMap from List.mem_singleton.mpr rfl)]
  have hsi : (Cert.Spec.gat1 N R wf).siIdx (ix1 t) ⟨List.idxOf (0 : Fin 1) (Cert.Spec.gat1 N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- The gather at row t when the row's index, read signed, is the number of an entry k: the array at k. -/
theorem gather_flat_apply_of {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) (k : Fin N)
    (hk : (idx (ix2 t (0 : Fin 1))).toInt = (k.val : ℤ)) :
    Host.gather (Cert.Spec.gat1 N R wf) x idx (ix1 t) = x (ix1 k) := by
  rw [gather_flat_apply hN]
  refine congrArg x (congrArg ix1 (Fin.ext ?_))
  show min (idx (ix2 t (0 : Fin 1))).toInt.toNat (N - 1) = k.val
  rw [hk]
  have := k.isLt
  omega

/-- A flat array broadcast to a column reads, at (t, 0), its entry t. -/
theorem column_apply {α : Type} {R : Nat}
    (h : (⟨1, ![R]⟩ : Shape).BroadcastsInDim ⟨2, ![R, 1]⟩ (![0] : Fin 1 → Fin 2))
    (v : (⟨1, ![R]⟩ : Shape).Idx → α) (t : Fin R) :
    broadcastInDim ⟨2, ![R, 1]⟩ (![0] : Fin 1 → Fin 2) h v (ix2 t (0 : Fin 1)) = v (ix1 t) := by
  unfold broadcastInDim
  congr 1
  funext a
  obtain rfl : a = 0 := Subsingleton.elim _ _
  refine Fin.ext ?_
  by_cases h1 : (⟨1, ![R]⟩ : Shape).size 0 = 1
  · rw [dif_pos h1]
    have hR : R = 1 := h1
    have := t.isLt
    show 0 = t.val
    omega
  · rw [dif_neg h1]
    rfl

end Cert.LibGatherFlat

end
-- ==== Proof.LibScatterPick.lean ====
/-
  A scatter whose combining operation returns one of its two arguments.

  A scatter folds the updates, in order, into an array: update n lands at an entry g n (or nowhere), and replaces the
  entry's value a by f a (update n). When f a b is always a or b, and an untouched entry combined with any update gives
  that update, every entry of the result is either its start value, no update having landed there, or the value of one
  of the updates that landed there.

  For a flat array of N entries and R scalar updates with one index per update (indices held as a column [R, 1]),
  update t lands at entry v exactly when its index, read as a signed integer, is v.
-/
import Idealize.ShloMosaic.PureOps
import Idealize.ShloMosaic.Lib.ValueIdx
import proofs.«131790_j77446850281785_1_alg».proof.Proof.Spec

noncomputable section

namespace Cert.LibScatterPick

open Idealize.ShloMosaic Idealize.ShloMosaic.ValueIdx

/-- The invariant of the fold over any list of updates. -/
theorem foldl_pick {ι κ α : Type} [DecidableEq κ] (f : α → α → α) (hf : ∀ a b, f a b = a ∨ f a b = b)
    (g : ι → Option κ) (upd : ι → α) (x : κ → α) (hx : ∀ n i, g n = some i → f (x i) (upd n) = upd n)
    (l : List ι) (i : κ) :
    ((l.foldl (fun r n => match g n with
        | some i => fun i' => if i' = i then f (r i) (upd n) else r i'
        | none => r) x) i = x i ∧ ∀ n ∈ l, g n ≠ some i)
    ∨ ∃ n ∈ l, g n = some i ∧ (l.foldl (fun r n => match g n with
        | some i => fun i' => if i' = i then f (r i) (upd n) else r i'
        | none => r) x) i = upd n := by
  induction l using List.reverseRecOn with
  | nil => left; exact ⟨rfl, fun n hn => absurd hn List.not_mem_nil⟩
  | append_singleton l m ih =>
    rw [List.foldl_append, List.foldl_cons, List.foldl_nil]
    generalize (l.foldl (fun r n => match g n with
        | some i => fun i' => if i' = i then f (r i) (upd n) else r i'
        | none => r) x) = r at ih ⊢
    cases hg : g m with
    | none =>
      show (r i = x i ∧ _) ∨ ∃ n ∈ l ++ [m], g n = some i ∧ r i = upd n
      rcases ih with ⟨h1, h2⟩ | ⟨n, hn, h1, h2⟩
      · left
        refine ⟨h1, fun n hn => ?_⟩
        rcases List.mem_append.mp hn with hn | hn
        · exact h2 n hn
        · rw [List.mem_singleton.mp hn, hg]; exact fun e => by cases e
      · right; exact ⟨n, List.mem_append_left _ hn, h1, h2⟩
    | some k =>
      show ((if i = k then f (r k) (upd m) else r i) = x i ∧ _)
        ∨ ∃ n ∈ l ++ [m], g n = some i ∧ (if i = k then f (r k) (upd m) else r i) = upd n
      by_cases hik : i = k
      · subst hik
        rw [if_pos rfl]
        right
        rcases hf (r i) (upd m) with e | e
        · rcases ih with ⟨h1, _⟩ | ⟨n, hn, h1, h2⟩
          · refine ⟨m, List.mem_append_right _ (List.mem_singleton.mpr rfl), hg, ?_⟩
            rw [h1]; exact hx m i hg
          · exact ⟨n, List.mem_append_left _ hn, h1, e.trans h2⟩
        · exact ⟨m, List.mem_append_right _ (List.mem_singleton.mpr rfl), hg, e⟩
      · rw [if_neg hik]
        rcases ih with ⟨h1, h2⟩ | ⟨n, hn, h1, h2⟩
        · left
          refine ⟨h1, fun n hn => ?_⟩
          rcases List.mem_append.mp hn with hn | hn
          · exact h2 n hn
          · rw [List.mem_singleton.mp hn, hg]; exact fun e => hik (Option.some.inj e).symm
        · right; exact ⟨n, List.mem_append_left _ hn, h1, h2⟩

/-- Every entry of a scatter with such an operation: its start value, no update landing there, or the value of an
    update that landed there. -/
theorem scatter_pick {s si u : Shape} {w : Nat} {α : Type} (d : ScatterDims s si u) (f : α → α → α)
    (hf : ∀ a b, f a b = a ∨ f a b = b) (x : s.Idx → α) (idx : IVec si w) (upd : u.Idx → α)
    (hx : ∀ j i, d.resultIdx? j idx = some i → f (x i) (upd j) = upd j) (i : s.Idx) :
    (Host.scatter d f x idx upd i = x i ∧ ∀ j : u.Idx, d.resultIdx? j idx ≠ some i)
    ∨ ∃ j : u.Idx, d.resultIdx? j idx = some i ∧ Host.scatter d f x idx upd i = upd j := by
  unfold Host.scatter
  rcases foldl_pick f hf (fun n => d.resultIdx? (u.rowMajor.symm n) idx) (fun n => upd (u.rowMajor.symm n)) x
      (fun n i h => hx _ i h) (List.finRange u.numel) i with ⟨h1, h2⟩ | ⟨n, _, h1, h2⟩
  · left
    refine ⟨by convert h1 using 4; cases d.resultIdx? (u.rowMajor.symm _) idx <;> first | rfl | (funext i'; congr), fun j => ?_⟩
    have := h2 (u.rowMajor j) (List.mem_finRange _)
    simpa using this
  · right
    exact ⟨u.rowMajor.symm n, h1, by convert h2 using 4; cases d.resultIdx? (u.rowMajor.symm _) idx <;> first | rfl | (funext i'; congr)⟩

/-- Where update j lands, for a flat array and one index per update: at entry i exactly when the index of j, read as a
    signed integer, is i. -/
theorem scat1_resultIdx_iff {N R w : Nat} (wf : ScatterDims.WF ⟨1, ![N]⟩ ⟨2, ![R, 1]⟩ ⟨1, ![R]⟩ [] [0] [0] 1)
    (idx : IVec ⟨2, ![R, 1]⟩ w) (t : Fin R) (v : Fin N) :
    (Cert.Spec.scat1 N R wf).resultIdx? (ix1 t) idx = some (ix1 v)
      ↔ (idx (ix2 t (0 : Fin 1))).toInt = (v.val : ℤ) := by
  have hstart : ∀ a, (Cert.Spec.scat1 N R wf).start (ix1 t) idx a = (idx (ix2 t (0 : Fin 1))).toInt := by
    intro a
    obtain rfl : a = 0 := Subsingleton.elim _ _
    unfold ScatterDims.start
    rw [dif_pos (show (0 : Fin 1) ∈ (Cert.Spec.scat1 N R wf).scatterDimsToOperandDims from List.mem_singleton.mpr rfl)]
    have hsi : (Cert.Spec.scat1 N R wf).siIdx (ix1 t)
        ⟨List.idxOf (0 : Fin 1) (Cert.Spec.scat1 N R wf).scatterDimsToOperandDims,
          List.idxOf_lt_length_iff.2 (List.mem_singleton.mpr rfl)⟩ = ix2 t (0 : Fin 1) := by
      funext b; refine Fin.ext ?_
      match b with
      | ⟨0, _⟩ => rfl
      | ⟨1, _⟩ => rfl
    rw [hsi]
  have hwin : ∀ a, (Cert.Spec.scat1 N R wf).window (ix1 t) a = 0 := by
    intro a
    obtain rfl : a = 0 := Subsingleton.elim _ _
    unfold ScatterDims.window
    rw [dif_neg]
    intro hmem
    have : (0 : Fin 1) ∉ [(0 : Fin 1)] := (List.mem_filter.mp hmem).2 |> fun h => by simpa using h
    exact this (List.mem_singleton.mpr rfl)
  unfold ScatterDims.resultIdx?
  constructor
  · intro h
    split at h
    · rename_i hall
      have e := Option.some.inj h
      have e0 := congrArg (fun q => (q 0).val) e
      simp only [hstart, hwin] at e0 hall
      have := (hall 0).1
      show _ = ((v : ℕ) : ℤ)
      have e1 : ((idx (ix2 t (0 : Fin 1))).toInt + ((0 : ℕ) : ℤ)).toNat = v.val := e0
      omega
    · cases h
  · intro h
    have hall : ∀ a, 0 ≤ (Cert.Spec.scat1 N R wf).start (ix1 t) idx a + ((Cert.Spec.scat1 N R wf).window (ix1 t) a : ℤ)
        ∧ (Cert.Spec.scat1 N R wf).start (ix1 t) idx a + ((Cert.Spec.scat1 N R wf).window (ix1 t) a : ℤ)
          < (((⟨1, ![N]⟩ : Shape).size a : ℕ) : ℤ) := by
      intro a
      obtain rfl : a = 0 := Subsingleton.elim _ _
      rw [hstart, hwin, h]
      have := v.isLt
      show 0 ≤ (v.val : ℤ) + ((0 : ℕ) : ℤ) ∧ (v.val : ℤ) + ((0 : ℕ) : ℤ) < ((N : ℕ) : ℤ)
      omega
    rw [dif_pos hall]
    congr 1
    funext a
    obtain rfl : a = 0 := Subsingleton.elim _ _
    refine Fin.ext ?_
    show ((Cert.Spec.scat1 N R wf).start (ix1 t) idx 0 + ((Cert.Spec.scat1 N R wf).window (ix1 t) 0 : ℤ)).toNat = v.val
    rw [hstart, hwin, h]
    omega

end Cert.LibScatterPick

end
-- ==== Proof.LibRunningCount.lean ====
/-
  A windowed sum that is a running sum.

  Words of natural numbers added up from the zero word, in any order of a list, give the word of the sum of the
  numbers.

  A sum over a window as long as the array itself, moved one step at a time and padded in front by one less than the
  length with the zero word, reads at position j the entries 0 … j: window position n reads entry j + n − (L − 1), and
  the positions before the array read zero. So when entry i is the word of a natural number m i, the result at j is the
  word of m 0 + … + m j.
-/
import Idealize.ShloMosaic.PureOps
import Idealize.ShloMosaic.Lib.ValueIdx
import Mathlib.Algebra.BigOperators.Fin

noncomputable section

open scoped BigOperators

namespace Cert.LibRunningCount

open Idealize.ShloMosaic Idealize.ShloMosaic.ValueIdx

/-- Words of naturals added one after the other to the word of a: the word of a plus their sum. -/
theorem foldl_addi_terms {ι : Type} (l : List ι) (step : BitVec 32 → ι → BitVec 32) (T : ι → ℕ)
    (hstep : ∀ r n, step r n = IntOp.addi r (BitVec.ofNat 32 (T n))) (v : BitVec 32) (a : ℕ)
    (hv : v = BitVec.ofNat 32 a) :
    l.foldl step v = BitVec.ofNat 32 (a + (l.map T).sum) := by
  subst hv
  induction l generalizing a with
  | nil => simp
  | cons n l ih =>
    rw [List.foldl_cons, hstep]
    have : IntOp.addi (BitVec.ofNat 32 a) (BitVec.ofNat 32 (T n)) = BitVec.ofNat 32 (a + T n) := by
      show BitVec.ofNat 32 a + BitVec.ofNat 32 (T n) = _
      rw [BitVec.ofNat_add]
    rw [this, ih, List.map_cons, List.sum_cons, Nat.add_assoc]

/-- The sum over the window positions is the sum of the entries up to j. -/
theorem window_sum_eq (L lo : ℕ) (hlo : lo + 1 = L) (m' : ℕ → ℕ) (j : ℕ) (hj : j < L) :
    ∑ n ∈ Finset.range L, (if lo ≤ j + n then m' (j + n - lo) else 0)
      = ∑ k ∈ Finset.range L, (if k ≤ j then m' k else 0) := by
  have e1 : L = (lo - j) + (j + 1) := by omega
  have e2 : L = (j + 1) + (lo - j) := by omega
  have h1 : ∑ n ∈ Finset.range L, (if lo ≤ j + n then m' (j + n - lo) else 0) = ∑ k ∈ Finset.range (j + 1), m' k := by
    conv_lhs => rw [e1]
    rw [Finset.sum_range_add, Finset.sum_eq_zero, Nat.zero_add]
    · refine Finset.sum_congr rfl fun k hk => ?_
      have := Finset.mem_range.mp hk
      rw [if_pos (by omega)]
      congr 1
      omega
    · intro n hn
      have := Finset.mem_range.mp hn
      rw [if_neg (by omega)]
  have h2 : ∑ k ∈ Finset.range L, (if k ≤ j then m' k else 0) = ∑ k ∈ Finset.range (j + 1), m' k := by
    conv_lhs => rw [e2]
    rw [Finset.sum_range_add, Nat.add_comm, Finset.sum_eq_zero, Nat.zero_add]
    · refine Finset.sum_congr rfl fun k hk => ?_
      have := Finset.mem_range.mp hk
      rw [if_pos (by omega)]
    · intro n _
      rw [if_neg (by omega)]
  rw [h1, h2]

/-- The windowed sum at position j: the word of the sum of the entries' numbers up to j. -/
theorem running_sum {L lo : ℕ} (hlo : lo + 1 = L)
    (rw' : (⟨1, ![L]⟩ : Shape).ReduceWindows (![L] : Fin 1 → Nat) ![1] ![lo] ![0] ⟨1, ![L]⟩)
    {u : Shape} (hu : 0 < u.numel) (init : u.Idx → BitVec 32) (hinit : init (Shape.Idx.first hu) = 0#32)
    (x : IVec ⟨1, ![L]⟩ 32) (m : Fin L → ℕ) (hx : ∀ i, x (ix1 i) = BitVec.ofNat 32 (m i)) (j : Fin L) :
    Host.reduceWindow IntOp.addi (![L] : Fin 1 → Nat) ![1] ![lo] ![0] x init rw' hu (ix1 j)
      = BitVec.ofNat 32 (∑ i : Fin L, if i.val ≤ j.val then m i else 0) := by
  let m' : ℕ → ℕ := fun k => if h : k < L then m ⟨k, h⟩ else 0
  let T' : ℕ → ℕ := fun n => if lo ≤ j.val + n then m' (j.val + n - lo) else 0
  have hM : (⟨1, ![L]⟩ : Shape).numel = L := Shape.numel_rank1 _
  have hrm : ∀ n : Fin (⟨1, ![L]⟩ : Shape).numel, (((⟨1, ![L]⟩ : Shape).rowMajor.symm n) 0).val = n.val := by
    intro n
    have := Shape.rowMajor_val_one ((⟨1, ![L]⟩ : Shape).rowMajor.symm n)
    rw [Equiv.apply_symm_apply] at this
    exact this.symm
  unfold Host.reduceWindow
  refine (foldl_addi_terms _ _ (fun n => T' n.val) ?_ _ 0 hinit).trans ?_
  · intro r n
    show IntOp.addi r _ = _
    congr 1
    by_cases hc : lo ≤ j.val + n.val ∧ j.val + n.val - lo < L
    · have hin : ∀ a : Fin 1, (![lo] : Fin 1 → Nat) a ≤ ((ix1 j : (⟨1, ![L]⟩ : Shape).Idx) (a.cast rw'.1.symm)).val * (![1] : Fin 1 → Nat) a
            + (((⟨1, ![L]⟩ : Shape).rowMajor.symm n) a).val
          ∧ ((ix1 j : (⟨1, ![L]⟩ : Shape).Idx) (a.cast rw'.1.symm)).val * (![1] : Fin 1 → Nat) a
            + (((⟨1, ![L]⟩ : Shape).rowMajor.symm n) a).val - (![lo] : Fin 1 → Nat) a < (⟨1, ![L]⟩ : Shape).size a := by
        intro a
        obtain rfl : a = 0 := Subsingleton.elim _ _
        show lo ≤ j.val * 1 + (((⟨1, ![L]⟩ : Shape).rowMajor.symm n) 0).val
          ∧ j.val * 1 + (((⟨1, ![L]⟩ : Shape).rowMajor.symm n) 0).val - lo < L
        rw [hrm]; omega
      rw [dif_pos hin]
      have e : (fun a : Fin 1 => (⟨((ix1 j : (⟨1, ![L]⟩ : Shape).Idx) (a.cast rw'.1.symm)).val * (![1] : Fin 1 → Nat) a
            + (((⟨1, ![L]⟩ : Shape).rowMajor.symm n) a).val - (![lo] : Fin 1 → Nat) a, (hin a).2⟩ : Fin ((⟨1, ![L]⟩ : Shape).size a)))
          = ix1 (⟨j.val + n.val - lo, hc.2⟩ : Fin L) := by
        funext a
        obtain rfl : a = 0 := Subsingleton.elim _ _
        refine Fin.ext ?_
        show j.val * 1 + (((⟨1, ![L]⟩ : Shape).rowMajor.symm n) 0).val - lo = j.val + n.val - lo
        rw [hrm]; omega
      rw [e, hx]
      show _ = BitVec.ofNat 32 (if lo ≤ j.val + n.val then (if h : j.val + n.val - lo < L then m ⟨j.val + n.val - lo, h⟩ else 0) else 0)
      rw [if_pos hc.1, dif_pos hc.2]
    · rw [dif_neg, hinit]
      · show _ = BitVec.ofNat 32 (if lo ≤ j.val + n.val then (if h : j.val + n.val - lo < L then m ⟨j.val + n.val - lo, h⟩ else 0) else 0)
        by_cases h1 : lo ≤ j.val + n.val
        · rw [if_pos h1, dif_neg (fun h2 => hc ⟨h1, h2⟩)]
        · rw [if_neg h1]
      · intro hin
        apply hc
        have := hin 0
        have h3 : lo ≤ j.val * 1 + (((⟨1, ![L]⟩ : Shape).rowMajor.symm n) 0).val
          ∧ j.val * 1 + (((⟨1, ![L]⟩ : Shape).rowMajor.symm n) 0).val - lo < L := this
        rw [hrm] at h3; omega
  · congr 1
    rw [Nat.zero_add, ← Fin.sum_univ_def, Fin.sum_univ_eq_sum_range (fun n => T' n), hM]
    have hr : ∑ i : Fin L, (if i.val ≤ j.val then m i else 0)
        = ∑ i : Fin L, (fun k => if k ≤ j.val then m' k else 0) i.val := by
      refine Finset.sum_congr rfl fun i _ => ?_
      show _ = if i.val ≤ j.val then (if h : i.val < L then m ⟨i.val, h⟩ else 0) else 0
      rw [dif_pos i.isLt]
    rw [hr, Fin.sum_univ_eq_sum_range (fun k => if k ≤ j.val then m' k else 0)]
    exact window_sum_eq L lo hlo m' j.val j.isLt

end Cert.LibRunningCount

end
-- ==== Proof.PosRange.lean ====
/-
  The order of first occurrence stays inside the vocabulary.

  When every token id is in [0, 2048), the index computed for a position t is the word of a natural number below 2048.
  Write w n for the id at position n. The scatter with the minimum leaves, at every vocabulary entry that some position
  holds, the word of a position holding it; so the first occurrence read for position t is the word of a position f t
  with w (f t) = w t, and it depends on t only through w t, whence f (f t) = f t. The marks are 1 exactly at the fixed
  points of f; two fixed points with the same id are equal, so there are at most 2048 of them. The running count of marks
  at f t is therefore the word of a number c with 1 ≤ c ≤ 2048 (the mark at f t itself is counted), and the result is the
  word of c − 1, which the cap at 39999 leaves alone.
-/
import Idealize.ShloMosaic.Lib.WordArith
import Mathlib.Algebra.BigOperators.Fin
import proofs.«131790_j77446850281785_1_alg».proof.Proof.Spec
import proofs.«131790_j77446850281785_1_alg».proof.Proof.LibWords
import proofs.«131790_j77446850281785_1_alg».proof.Proof.LibSmallWords
import proofs.«131790_j77446850281785_1_alg».proof.Proof.LibGatherFlat
import proofs.«131790_j77446850281785_1_alg».proof.Proof.LibScatterPick
import proofs.«131790_j77446850281785_1_alg».proof.Proof.LibRunningCount

noncomputable section

open scoped BigOperators

namespace Cert.PosRange

open Idealize.ShloMosaic Idealize.ShloMosaic.ValueIdx
open Cert.Spec Cert.LibSmallWords

/-- The ids as a flat array: with ids that are not negative, position t holds the id of position t. -/
theorem ids_apply (h : PosFacts) (tok : IVec S1x32768 32)
    (hdom : ∀ t : Fin 32768, (0 : ℤ) ≤ (tok (ix2 (0 : Fin 1) t)).toInt ∧ (tok (ix2 (0 : Fin 1) t)).toInt < 2048)
    (t : Fin 32768) : ids h tok (ix1 t) = tok (ix2 (0 : Fin 1) t) := by
  have hc : shapeCast S32768 tok h.cast_in (ix1 t) = tok (ix2 (0 : Fin 1) t) := by
    unfold shapeCast
    congr 1
    refine Shape.reshapeEquiv_eq_of_rowMajor _ ?_
    rw [Shape.rowMajor_val_two, Shape.rowMajor_val_one]
    show (0 : ℕ) * 32768 + t.val = t.val
    omega
  show Scalar.select (IntOp.cmpi .slt (shapeCast S32768 tok h.cast_in (ix1 t)) 0#32)
    (IntOp.addi (shapeCast S32768 tok h.cast_in (ix1 t)) 2048#32) (shapeCast S32768 tok h.cast_in (ix1 t)) = _
  rw [hc]
  exact select_neg_fix _ _ (hdom t).1

/-- The column of ids at (t, 0) is the id of position t. -/
theorem col_ids (h : PosFacts) (tok : IVec S1x32768 32)
    (hdom : ∀ t : Fin 32768, (0 : ℤ) ≤ (tok (ix2 (0 : Fin 1) t)).toInt ∧ (tok (ix2 (0 : Fin 1) t)).toInt < 2048)
    (t : Fin 32768) :
    broadcastInDim S32768x1 ![0] h.bcol (ids h tok) (ix2 t (0 : Fin 1)) = tok (ix2 (0 : Fin 1) t) :=
  (Cert.LibGatherFlat.column_apply (R := 32768) h.bcol (ids h tok) t).trans (ids_apply h tok hdom t)

/-- The start word 32768 combined by the minimum with the word of a position gives the position's word. -/
theorem minsi_start (j : S32768.Idx) :
    IntOp.minsi (BitVec.ofNat 32 32768) (iotaInDim S32768 32 0 j) = iotaInDim S32768 32 0 j := by
  have hj : (j 0).val < 32768 := (j 0).isLt
  show IntOp.minsi (BitVec.ofNat 32 32768) (BitVec.ofNat 32 (j 0).val) = BitVec.ofNat 32 (j 0).val
  rw [minsi_ofNat _ _ (by norm_num) (by omega), Nat.min_eq_right (by omega)]

/-- A vocabulary entry that some position holds keeps the word of a position holding it. -/
theorem firstSeen_spec (h : PosFacts) (tok : IVec S1x32768 32)
    (hdom : ∀ t : Fin 32768, (0 : ℤ) ≤ (tok (ix2 (0 : Fin 1) t)).toInt ∧ (tok (ix2 (0 : Fin 1) t)).toInt < 2048)
    (v : Fin 2048) (t : Fin 32768) (ht : (tok (ix2 (0 : Fin 1) t)).toInt = (v.val : ℤ)) :
    ∃ n0 : Fin 32768, firstSeen h tok (ix1 v) = BitVec.ofNat 32 n0.val ∧ (tok (ix2 (0 : Fin 1) n0)).toInt = (v.val : ℤ) := by
  unfold firstSeen
  rcases Cert.LibScatterPick.scatter_pick (scat1 2048 32768 h.wfs) IntOp.minsi minsi_pick
      (broadcastInDim S2048 ![] h.b2048 (constantI S_ 32 32768#32))
      (broadcastInDim S32768x1 ![0] h.bcol (ids h tok)) (iotaInDim S32768 32 0) (fun j _ _ => minsi_start j) (ix1 v) with ⟨_, h2⟩ | ⟨j, hj, e⟩
  · exfalso
    apply h2 (ix1 t)
    rw [Cert.LibScatterPick.scat1_resultIdx_iff, col_ids h tok hdom]
    exact ht
  · obtain ⟨n0, rfl⟩ : ∃ n0 : Fin 32768, j = ix1 n0 := ⟨j 0, eq_ix1 j⟩
    refine ⟨n0, e, ?_⟩
    rw [Cert.LibScatterPick.scat1_resultIdx_iff, col_ids h tok hdom] at hj
    exact hj

/-- The first occurrence read for position t is the array of first positions at the id of t. -/
theorem firstPos_apply (h : PosFacts) (tok : IVec S1x32768 32)
    (hdom : ∀ t : Fin 32768, (0 : ℤ) ≤ (tok (ix2 (0 : Fin 1) t)).toInt ∧ (tok (ix2 (0 : Fin 1) t)).toInt < 2048)
    (t : Fin 32768) (v : Fin 2048) (hv : (tok (ix2 (0 : Fin 1) t)).toInt = (v.val : ℤ)) :
    firstPos h tok (ix1 t) = firstSeen h tok (ix1 v) := by
  unfold firstPos
  exact Cert.LibGatherFlat.gather_flat_apply_of (by norm_num) h.wfg1 _ _ t v
    ((congrArg BitVec.toInt (col_ids h tok hdom t)).trans hv)

/-- The id of position t as a vocabulary entry. -/
theorem exists_entry (tok : IVec S1x32768 32)
    (hdom : ∀ t : Fin 32768, (0 : ℤ) ≤ (tok (ix2 (0 : Fin 1) t)).toInt ∧ (tok (ix2 (0 : Fin 1) t)).toInt < 2048)
    (t : Fin 32768) : ∃ v : Fin 2048, (tok (ix2 (0 : Fin 1) t)).toInt = (v.val : ℤ) := by
  have := hdom t
  exact ⟨⟨(tok (ix2 (0 : Fin 1) t)).toInt.toNat, by omega⟩, by show _ = (((tok (ix2 (0 : Fin 1) t)).toInt.toNat : ℕ) : ℤ); omega⟩

/-- The first occurrence read for position t is the word of a position with the same id. -/
theorem firstPos_exists (h : PosFacts) (tok : IVec S1x32768 32)
    (hdom : ∀ t : Fin 32768, (0 : ℤ) ≤ (tok (ix2 (0 : Fin 1) t)).toInt ∧ (tok (ix2 (0 : Fin 1) t)).toInt < 2048)
    (t : Fin 32768) :
    ∃ n0 : Fin 32768, firstPos h tok (ix1 t) = BitVec.ofNat 32 n0.val
      ∧ (tok (ix2 (0 : Fin 1) n0)).toInt = (tok (ix2 (0 : Fin 1) t)).toInt := by
  obtain ⟨v, hv⟩ := exists_entry tok hdom t
  obtain ⟨n0, e1, e2⟩ := firstSeen_spec h tok hdom v t hv
  exact ⟨n0, (firstPos_apply h tok hdom t v hv).trans e1, e2.trans hv.symm⟩

/-- Positions with the same id read the same first occurrence. -/
theorem firstPos_congr (h : PosFacts) (tok : IVec S1x32768 32)
    (hdom : ∀ t : Fin 32768, (0 : ℤ) ≤ (tok (ix2 (0 : Fin 1) t)).toInt ∧ (tok (ix2 (0 : Fin 1) t)).toInt < 2048)
    (t t' : Fin 32768) (e : (tok (ix2 (0 : Fin 1) t)).toInt = (tok (ix2 (0 : Fin 1) t')).toInt) :
    firstPos h tok (ix1 t) = firstPos h tok (ix1 t') := by
  obtain ⟨v, hv⟩ := exists_entry tok hdom t'
  rw [firstPos_apply h tok hdom t v (e.trans hv), firstPos_apply h tok hdom t' v hv]

/-- The first occurrence with a negative value raised by the sequence length: the index array of the second gather. -/
def firstPos' (h : PosFacts) (tok : IVec S1x32768 32) : IVec S32768 32 :=
  select (cmpi .slt (firstPos h tok) (splat h 0#32)) (addi (firstPos h tok) (splat h 32768#32)) (firstPos h tok)

/-- The result: the rank less one read at that index array, capped at 39999. -/
theorem posOf_eq (h : PosFacts) (tok : IVec S1x32768 32) :
    posOf h tok = minsi (Host.gather (gat1 32768 32768 h.wfg2) (subi (count h tok) (splat h 1#32))
      (broadcastInDim S32768x1 ![0] h.bcol (firstPos' h tok))) (splat h 39999#32) := rfl

/-- With every id in [0, 2048), the index computed for every position is the word of a natural number below 2048. -/
theorem posOf_range (h : Cert.Spec.PosFacts) (tok : IVec Cert.Spec.S1x32768 32)
    (hdom : ∀ t : Fin 32768, (0 : ℤ) ≤ (tok (ix2 (0 : Fin 1) t)).toInt ∧ (tok (ix2 (0 : Fin 1) t)).toInt < 2048) :
    ∀ t : Fin 32768, ∃ p : Fin 2048, Cert.Spec.posOf h tok (ix1 t) = BitVec.ofNat 32 p.val := by
  choose f hf1 hf2 using firstPos_exists h tok hdom
  have hlt : ∀ t : Fin 32768, (f t).val < 32768 := fun t => (f t).isLt
  -- the first occurrence of a first occurrence is itself
  have hff : ∀ t, f (f t) = f t := by
    intro t
    have e : firstPos h tok (ix1 (f t)) = firstPos h tok (ix1 t) := firstPos_congr h tok hdom _ _ (hf2 t)
    rw [hf1, hf1] at e
    have := hlt t; have := hlt (f t)
    exact Fin.ext (ofNat_inj (by omega) (by omega) e)
  -- the marks, as numbers
  let m : Fin 32768 → ℕ := fun i => (IntOp.cmpi .eq (BitVec.ofNat 32 i.val) (firstPos h tok (ix1 i))).toNat
  have hmark : ∀ i : Fin 32768, isFirst h tok (ix1 i) = BitVec.ofNat 32 (m i) := by
    intro i
    show (IntOp.cmpi .eq (BitVec.ofNat 32 i.val) (firstPos h tok (ix1 i))).setWidth 32 = _
    exact Cert.LibWords.setWidth_bit _
  have hm : ∀ i : Fin 32768, m i = if f i = i then 1 else 0 := by
    intro i
    show (IntOp.cmpi .eq (BitVec.ofNat 32 i.val) (firstPos h tok (ix1 i))).toNat = _
    rw [cmpi_eq_toNat, hf1]
    have := hlt i; have := i.isLt
    by_cases hi : f i = i
    · rw [if_pos hi, hi, if_pos rfl]
    · rw [if_neg hi, if_neg]
      intro e
      exact hi (Fin.ext (ofNat_inj (by omega) (by omega) e).symm)
  -- the running count
  have hcount : ∀ j : Fin 32768, count h tok (ix1 j)
      = BitVec.ofNat 32 (∑ i : Fin 32768, if i.val ≤ j.val then m i else 0) := by
    intro j
    unfold count
    exact Cert.LibRunningCount.running_sum (L := 32768) (lo := 32767) rfl h.rw h.hS _ rfl (isFirst h tok) m hmark j
  -- fixed points with the same id are equal, so they are at most 2048
  have hcard : ∑ i : Fin 32768, m i ≤ 2048 := by
    classical
    have e1 : ∑ i : Fin 32768, m i = (Finset.univ.filter fun i : Fin 32768 => f i = i).card := by
      rw [Finset.card_filter]
      exact Finset.sum_congr rfl fun i _ => hm i
    rw [e1]
    choose w hw using exists_entry tok hdom
    have := Finset.card_le_card_of_injOn (s := Finset.univ.filter fun i : Fin 32768 => f i = i)
      (t := (Finset.univ : Finset (Fin 2048))) w (fun i _ => Finset.mem_univ _) (by
        intro a ha b hb hab
        have ha' : f a = a := (Finset.mem_filter.mp (Finset.mem_coe.mp ha)).2
        have hb' : f b = b := (Finset.mem_filter.mp (Finset.mem_coe.mp hb)).2
        have e : firstPos h tok (ix1 a) = firstPos h tok (ix1 b) :=
          firstPos_congr h tok hdom a b ((hw a).trans ((congrArg (fun q : Fin 2048 => (q.val : ℤ)) hab).trans (hw b).symm))
        rw [hf1, hf1, ha', hb'] at e
        have := a.isLt; have := b.isLt
        exact Fin.ext (ofNat_inj (by omega) (by omega) e))
    simpa using this
  intro t
  have hc1 : 1 ≤ ∑ i : Fin 32768, if i.val ≤ (f t).val then m i else 0 := by
    have := Finset.single_le_sum (f := fun i : Fin 32768 => if i.val ≤ (f t).val then m i else 0)
      (fun i _ => Nat.zero_le _) (Finset.mem_univ (f t))
    have e : (if (f t).val ≤ (f t).val then m (f t) else 0) = 1 := by
      rw [if_pos (Nat.le_refl _), hm, if_pos (hff t)]
    exact e ▸ this
  have hc2 : ∑ i : Fin 32768, (if i.val ≤ (f t).val then m i else 0) ≤ 2048 :=
    (Finset.sum_le_sum fun i _ => by split <;> omega).trans hcard
  obtain ⟨c, hcnt, hc1', hc2'⟩ : ∃ c : ℕ, count h tok (ix1 (f t)) = BitVec.ofNat 32 c ∧ 1 ≤ c ∧ c ≤ 2048 :=
    ⟨_, hcount (f t), hc1, hc2⟩
  refine ⟨⟨c - 1, by omega⟩, ?_⟩
  have hsel : firstPos' h tok (ix1 t) = BitVec.ofNat 32 (f t).val := by
    show Scalar.select (IntOp.cmpi .slt (firstPos h tok (ix1 t)) 0#32)
      (IntOp.addi (firstPos h tok (ix1 t)) 32768#32) (firstPos h tok (ix1 t)) = _
    rw [hf1 t]
    have := hlt t
    exact select_neg_fix _ _ (by rw [WordArith.toInt_ofNat_small _ (by omega)]; omega)
  have hidx : (broadcastInDim S32768x1 ![0] h.bcol (firstPos' h tok) (ix2 t (0 : Fin 1))).toInt = ((f t).val : ℤ) := by
    rw [Cert.LibGatherFlat.column_apply (R := 32768) h.bcol (firstPos' h tok) t, hsel]
    have := hlt t
    exact WordArith.toInt_ofNat_small _ (by omega)
  rw [posOf_eq]
  show IntOp.minsi (Host.gather (gat1 32768 32768 h.wfg2) (subi (count h tok) (splat h 1#32))
    (broadcastInDim S32768x1 ![0] h.bcol (firstPos' h tok)) (ix1 t)) 39999#32 = _
  rw [Cert.LibGatherFlat.gather_flat_apply_of (by norm_num) h.wfg2 _ _ t (f t) hidx]
  show IntOp.minsi (IntOp.subi (count h tok (ix1 (f t))) 1#32) (BitVec.ofNat 32 39999) = _
  rw [hcnt, ofNat_sub_one _ hc1', minsi_ofNat _ _ (by omega) (by norm_num)]
  exact congrArg (BitVec.ofNat 32) (Nat.min_eq_left (by omega))

end Cert.PosRange

end
-- ==== Proof.PreDecode.lean ====
/-
  What the precondition says about the token ids.

  The precondition is the conjunction of four "for all entries" statements: x finite, pe finite, every token id at least
  0, every token id below 2048 (signed comparisons). Reading off the last two at one position: the id there is a signed
  integer in [0, 2048).
-/
import proofs.«131790_j77446850281785_1_alg».proof.Pre_finite_inputs
import proofs.«131790_j77446850281785_1_alg».proof.Proof.LibOneHot
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_finite_inputs

instance : Subsingleton Cert.Pre_finite_inputs.S_.Idx := ⟨fun a b => funext fun d => d.elim0⟩

/-- The word of a natural number below 2048 is that number as a signed integer. -/
theorem toInt_ofNat_small (p : Fin 2048) : (BitVec.ofNat 32 p.val).toInt = (p.val : ℤ) := by
  have hp := p.isLt
  have := BitVec.toInt_eq_toNat_cond (BitVec.ofNat 32 p.val)
  rw [BitVec.toNat_ofNat] at this
  split_ifs at this <;> omega

/-- Under the precondition the token id at every position is a signed integer in [0, 2048). -/
theorem dom_of_pre [Cert.Pre_finite_inputs.Facts] {F : FTy → Type} [FloatOps F] (tok : IVec S1x32768 32)
    (x : FVec F S1x32768x512 .f32) (pe : FVec F S1x40000x512 .f32)
    (h : Cert.Pre_finite_inputs.fn (F := F) tok x pe = fun _ => 1#1) (t : Fin 32768) :
    (0 : ℤ) ≤ (tok (ix2 (0 : Fin 1) t)).toInt ∧ (tok (ix2 (0 : Fin 1) t)).toInt < 2048 := by
  have h0 := congrFun h ix0
  dsimp only [Cert.Pre_finite_inputs.fn, Cert.Pre_finite_inputs.fn_part1] at h0
  obtain ⟨h12, h15⟩ := IntOp.andi_eq_one.mp h0
  obtain ⟨-, h11⟩ := IntOp.andi_eq_one.mp h12
  have g0 : IntOp.cmpi .sge (tok (ix2 (0 : Fin 1) t)) 0#32 = 1#1 :=
    Host.reduce_andi_all _ _ _ _ ix0 h11 (ix2 (0 : Fin 1) t)
  have g1 : IntOp.cmpi .slt (tok (ix2 (0 : Fin 1) t)) (BitVec.ofNat 32 2048) = 1#1 :=
    Host.reduce_andi_all _ _ _ _ ix0 h15 (ix2 (0 : Fin 1) t)
  obtain ⟨p, hp⟩ := Cert.LibOneHot.exists_class_of_range (n := 2048) (by norm_num) _ g0 g1
  rw [hp, toInt_ofNat_small]
  have := p.isLt
  omega

end Cert.PreDecode

end
-- ==== Proof.lean ====
/-
  The kernel adds to each position of x a row of the table pe chosen by the position's token: the row whose number is
  the order in which the token's type first appeared. Both programs compute that row number by the same host
  operations (the least position of every vocabulary entry by a scatter with min, each position's first occurrence by a
  gather, the running count of first occurrences, read back at the first occurrence). The reference then gathers the
  row from the table; the kernel multiplies a one-hot weight matrix over the first 2048 rows with those rows.

  The two agree because, for token ids in [0, 2048) — the domain the claim is stated on —, every row number is below
  2048: the positions that are their own first occurrence inject into the vocabulary, so their count is at most 2048,
  and the count read at a first occurrence is at least 1. A weighted sum over 2048 rows whose weights are 1 at one row
  and 0 elsewhere is that row, for every extended real (a product with zero is zero), so no finiteness is used; the
  change of float format on the way into the product is the identity on the extended reals.

  Proved here: the three programs run and leave their arguments; nothing was rewritten by the idealization, so
  `preserves` is trivial; and, from memories agreeing on the arguments, the idealized kernel and the idealized reference
  both end with the common result function `Cert.Spec.out` of the arguments.
-/
import proofs.«131790_j77446850281785_1_alg».proof.Defs
import proofs.«131790_j77446850281785_1_alg».proof.Proof.Gen.Kernel
import proofs.«131790_j77446850281785_1_alg».proof.Proof.Gen.Kernel.Frame
import proofs.«131790_j77446850281785_1_alg».proof.Proof.Gen.KernelIdeal
import proofs.«131790_j77446850281785_1_alg».proof.Proof.Gen.KernelIdeal.Frame
import proofs.«131790_j77446850281785_1_alg».proof.Proof.Gen.KernelIdeal.Value
import proofs.«131790_j77446850281785_1_alg».proof.Proof.Gen.ReferenceIdeal
import proofs.«131790_j77446850281785_1_alg».proof.Proof.Gen.Pre_finite_inputs
import proofs.«131790_j77446850281785_1_alg».proof.Proof.KernelFinal
import proofs.«131790_j77446850281785_1_alg».proof.Proof.RefValue
import proofs.«131790_j77446850281785_1_alg».proof.Proof.PosRange
import proofs.«131790_j77446850281785_1_alg».proof.Proof.PreDecode

noncomputable section

namespace Cert.Proof

open Idealize.ShloMosaic Idealize.ShloMosaic.ValueIdx Idealize.SL.Sem

/-- The word-level kernel runs and leaves its arguments. -/
theorem frame_k : Cert.frame_Kernel := fun m ρ _ => Cert.Kernel.Gen.frame m ρ

/-- The idealized kernel runs and leaves its arguments. -/
theorem frame_ki : Cert.frame_KernelIdeal := fun m ρ _ => Cert.KernelIdeal.Gen.frame m ρ

/-- The idealized reference runs and leaves its arguments. -/
theorem frame_ri : Cert.frame_ReferenceIdeal := fun m ρ _ => Cert.ReferenceIdeal.RefValue.frame m ρ

/-- The idealization rewrote nothing. -/
theorem preserves : Cert.preserves_Kernel_KernelIdeal := trivial

/-- From memories agreeing on the arguments, with token ids in [0, 2048), both idealized programs end with the common
    result function of the arguments: every position's row number is the word of a row below 2048, which is what each
    side's reading of its result needs. -/
theorem algebraic : Cert.algebraic_KernelIdeal_ReferenceIdeal := by
  intro m ρ m' ρ' hpre hagree
  have hPK : ∀ (c : Dev Cert.KernelIdeal.nD) (T : Fin 32768), ∃ p : Fin 2048,
      Cert.Spec.posOf Cert.KernelIdeal.KValue.kfacts
        (m ((c.tc : Thread Cert.KernelIdeal.nD Cert.KernelIdeal.τ).loc Cert.KernelIdeal.main_arg0)) (ix1 T)
        = BitVec.ofNat 32 p.val :=
    fun c => Cert.PosRange.posOf_range _ _ (fun t => Cert.PreDecode.dom_of_pre _ _ _ (hpre c) t)
  have hPR : ∀ (c : Dev Cert.ReferenceIdeal.nD) (T : Fin 32768), ∃ p : Fin 2048,
      Cert.Spec.posOf Cert.ReferenceIdeal.RefValue.rfacts
        (m' ((c.tc : Thread Cert.ReferenceIdeal.nD Cert.ReferenceIdeal.τ).loc Cert.ReferenceIdeal.main_arg0)) (ix1 T)
        = BitVec.ofNat 32 p.val := by
    intro c
    rw [(hagree c).1]
    exact Cert.PosRange.posOf_range _ _ (fun t => Cert.PreDecode.dom_of_pre _ _ _ (hpre c) t)
  refine ⟨fun c => Cert.KernelIdeal.KValue.result m c, Cert.KernelIdeal.KValue.run m ρ hPK, ?_⟩
  refine (θ_run Cert.ReferenceIdeal.defs _ _).mono (fun r h c => ⟨(h c).1.trans ?_, (h c).2⟩)
    (Cert.ReferenceIdeal.RefValue.run m' ρ' hPR)
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
